-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x200 : Shape := ⟨2, ![100000, 200]⟩
abbrev S2x1600000 : Shape := ⟨2, ![2, 1600000]⟩
abbrev S200x64 : Shape := ⟨2, ![200, 64]⟩
abbrev S64 : Shape := ⟨1, ![64]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x200 .f32) (main_arg1 : IVec S2x1600000 32) (main_arg2 : FVec F S200x64 .f32) (main_arg3 : FVec F S64 .f32) (main_arg4 : FVec F S64 .f32) (main_arg5 : FVec F S64 .f32) : IVec S_ 1 :=
  let main_v0 : FVec F S100000x200 .f32 := Host.absf main_arg0
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S200x64 .f32 := Host.absf main_arg2
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x200 : Shape := ⟨2, ![100000, 200]⟩
abbrev S2x1600000 : Shape := ⟨2, ![2, 1600000]⟩
abbrev S200x64 : Shape := ⟨2, ![200, 64]⟩
abbrev S64 : Shape := ⟨1, ![64]⟩
abbrev S100000x64 : Shape := ⟨2, ![100000, 64]⟩
abbrev S5000x200 : Shape := ⟨2, ![5000, 200]⟩
abbrev S5000x64 : Shape := ⟨2, ![5000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 80
  | .vmem => 19
  | .smem => 0
  | _ => 0

abbrev bufTy : (tb : Table) → Fin (tcTables nBuf tb) → BufTy
  | .hbm, ⟨0, _⟩ => ⟨S100000x200, .f32⟩
  | .hbm, ⟨1, _⟩ => ⟨S2x1600000, .i32⟩
  | .hbm, ⟨2, _⟩ => ⟨S200x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S1x64, .f32⟩
  | .hbm, ⟨69, _⟩ => ⟨S_, .f32⟩
  | .hbm, ⟨70, _⟩ => ⟨S1x64, .f32⟩
  | .hbm, ⟨71, _⟩ => ⟨S1x64, .f32⟩
  | .hbm, ⟨72, _⟩ => ⟨S_, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S100000x64, .f32⟩
  | .local _ .vmem, ⟨0, _⟩ => ⟨S5000x200, .f32⟩
  | .local _ .vmem, ⟨1, _⟩ => ⟨S5000x200, .f32⟩
  | .local _ .vmem, ⟨2, _⟩ => ⟨S200x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | _, _ => ⟨S100000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v47_2 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x200_S5000x200_0_0 : ∀ a, (![0, 0] : Fin 2 → Nat) a + S5000x200.size a ≤ S5000x200.size a
  h_S5000x200 : 0 < S5000x200.numel
  inb_S200x64_S200x64_0_0 : ∀ a, (![0, 0] : Fin 2 → Nat) a + S200x64.size a ≤ S200x64.size a
  h_S200x64 : 0 < S200x64.numel
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  bcast_S_S1x64 : S_.BroadcastsInDim S1x64 (![] : Fin 0 → Fin S1x64.rank)
  broadcasts_S1x64_S5000x64 : S1x64.Broadcasts S5000x64
  dot_S5000x200_S200x64_S5000x64_1_0_0_1_n_n_wf : DotDims.WF S5000x200 S200x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x200.size a ≤ S100000x200.size a
  hwx0_0 : ∀ i : grid0.Coords, EltTy.bits .f32 = 32 ∨ (Rect.block (s := S100000x200) S5000x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x64.size a ≤ S200x64.size a
  hwx0_1 : ∀ i : grid0.Coords, EltTy.bits .f32 = 32 ∨ (Rect.block (s := S200x64) S200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def dot_S5000x200_S200x64_S5000x64_1_0_0_1_n_n : DotDims S5000x200 S200x64 S5000x64 where
  lhsContracting := [1]
  rhsContracting := [0]
  lhsNonContracting := [0]
  rhsNonContracting := [1]
  lhsBatch := []
  rhsBatch := []
  wf := dot_S5000x200_S200x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S5000x64.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_2) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x200 : Shape := ⟨2, ![100000, 200]⟩
abbrev S2x1600000 : Shape := ⟨2, ![2, 1600000]⟩
abbrev S200x64 : Shape := ⟨2, ![200, 64]⟩
abbrev S64 : Shape := ⟨1, ![64]⟩
abbrev S100000x64 : Shape := ⟨2, ![100000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S100000x200, .f32⟩
  | .hbm, ⟨1, _⟩ => ⟨S2x1600000, .i32⟩
  | .hbm, ⟨2, _⟩ => ⟨S200x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | _, _ => ⟨S100000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  dot_S100000x200_S200x64_S100000x64_1_0_0_1_n_n_wf : DotDims.WF S100000x200 S200x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x200_S200x64_S100000x64_1_0_0_1_n_n : DotDims S100000x200 S200x64 S100000x64 where
  lhsContracting := [1]
  rhsContracting := [0]
  lhsNonContracting := [0]
  rhsNonContracting := [1]
  lhsBatch := []
  rhsBatch := []
  wf := dot_S100000x200_S200x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  @main is three pipelined regions among stretches of host operations. Every weakly fair execution runs the seven
  segments in order; the buffers' contents at each boundary are a fold from the launch memory, and after the last
  region every unscoped buffer holds that fold's last stage. Read at the result buffer this names the result; read at
  an argument it walks back to the launch memory.
-/
import proofs.«143240_j15942918603370_1_alg».proof.Proof.Gen.KernelIdeal.Frame

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last stage of the
    fold of boundary contents and every argument as launched. -/
theorem run_value : θ_run defs (onTc (τ := τ) (main (F := F))) ⟨m, fun _ => 0, ρ⟩ (fun r => ∀ c : Dev nD,
      r.2.mem ((c.tc : Thread nD τ).loc main_v56) = W7 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v56 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KV

end
-- ==== Proof.Spec.lean ====
/-
  Batch normalisation of a rectified feature matrix, as functions of whole arrays on the extended reals.

  For a 100000 x 64 matrix `R` (one row per node, one column per feature):
  * `colSum R c` and `colSumSq R c` are the sums down column `c` of the entries and of their squares;
  * `mean R c` is the column sum divided by the number of rows;
  * the variance of column `c` is written in two ways: by moments, `colSumSq / n - mean * mean`, and by
    deviations, `(sum of (R - mean)^2) / n`;
  * `affine R mu v g b` is the normalised matrix: `(R (r, c) - mu c) * rsqrt (v c + eps) * g c + b c`.
  On the extended reals the two variances need not agree (at an infinite entry one is -inf, the other +inf); when every
  entry of the column is a real number they do, by the usual expansion of the square, because the divisor is exactly
  the number of rows.
-/
import Idealize.ShloMosaic.PureOps.Ideal
import Idealize.ShloMosaic.Lib.ValueIdx
import Mathlib.Tactic

noncomputable section

open scoped BigOperators

namespace Cert.BatchNorm

open Idealize.ShloMosaic Idealize.ShloMosaic.ValueIdx

/-- A 100000 x 64 matrix of extended reals. -/
abbrev Mat : Type := (⟨2, ![100000, 64]⟩ : Shape).Idx → EReal

/-- The number of rows, as the f32 word the programs divide by. -/
def cnt : EReal := Ideal.ofBits .f32 0x47C35000#32

/-- The offset added to the variance, as the f32 word the programs add. -/
def eps : EReal := Ideal.ofBits .f32 0x3727C5AC#32

/-- Every entry rectified: the maximum with zero. -/
def relu (H : Mat) : Mat := fun i => max (H i) 0

/-- The sum down column `c`. -/
def colSum (R : Mat) (c : Fin 64) : EReal := ∑ r : Fin 100000, R (ix2 r c)

/-- The sum of squares down column `c`. -/
def colSumSq (R : Mat) (c : Fin 64) : EReal := ∑ r : Fin 100000, R (ix2 r c) * R (ix2 r c)

/-- The mean of column `c`. -/
def mean (R : Mat) (c : Fin 64) : EReal := Ideal.div (colSum R c) cnt

/-- The variance of column `c` by moments: mean of squares minus squared mean. -/
def varMoments (R : Mat) (c : Fin 64) : EReal := Ideal.div (colSumSq R c) cnt - mean R c * mean R c

/-- The variance of column `c` by deviations: mean of the squared distances to the mean. -/
def varDev (R : Mat) (c : Fin 64) : EReal :=
  Ideal.div (∑ r : Fin 100000, (R (ix2 r c) - mean R c) * (R (ix2 r c) - mean R c)) cnt

/-- The normalised matrix: centre by `mu`, scale by `rsqrt (v + eps)`, then the affine map `g`, `b` per column. -/
def affine (R : Mat) (mu v g b : Fin 64 → EReal) : Mat :=
  fun i => (R i - mu (i 1)) * Ideal.rsqrt (v (i 1) + eps) * g (i 1) + b (i 1)

/-- The word `0x47C35000` is the real number 100000. -/
theorem cnt_eq : cnt = ((100000 : ℝ) : EReal) := by
  unfold cnt
  simp [Ideal.ofBits, Ideal.ieee, -EReal.coe_mul]
  norm_num

/-- A finite sum of reals read in the extended reals is the real sum. -/
theorem coe_sum {ι : Type*} (s : Finset ι) (x : ι → ℝ) :
    (∑ i ∈ s, ((x i : ℝ) : EReal)) = ((∑ i ∈ s, x i : ℝ) : EReal) := by
  classical
  induction s using Finset.induction_on with
  | empty => simp
  | insert a s ha ih => rw [Finset.sum_insert ha, Finset.sum_insert ha, ih, EReal.coe_add]

/-- Over the reals: mean of squares minus squared mean is the mean of squared deviations, when the divisor is the
    number of samples. -/
theorem variance_real {ι : Type*} [Fintype ι] (x : ι → ℝ) (N : ℝ) (hN : (Fintype.card ι : ℝ) = N) (hN0 : N ≠ 0) :
    (∑ i, x i * x i) / N - ((∑ i, x i) / N) * ((∑ i, x i) / N)
      = (∑ i, (x i - (∑ i, x i) / N) * (x i - (∑ i, x i) / N)) / N := by
  set μ := (∑ i, x i) / N with hμ
  have hsum : (∑ i, x i) = μ * N := by rw [hμ]; field_simp
  have key : (∑ i, (x i - μ) * (x i - μ)) = (∑ i, x i * x i) - μ * μ * N := by
    have : ∀ i, (x i - μ) * (x i - μ) = x i * x i - 2 * μ * x i + μ * μ := fun i => by ring
    simp only [this, Finset.sum_add_distrib, Finset.sum_sub_distrib, ← Finset.mul_sum, Finset.sum_const,
      Finset.card_univ, nsmul_eq_mul, hN, hsum]
    ring
  rw [key]
  field_simp

/-- THE TWO VARIANCES AGREE on a column of reals. -/
theorem var_eq (R : Mat) (c : Fin 64) (hR : ∀ r : Fin 100000, ∃ x : ℝ, R (ix2 r c) = (x : EReal)) :
    varMoments R c = varDev R c := by
  choose x hx using hR
  have h5 : (100000 : ℝ) ≠ 0 := by norm_num
  have hdiv : ∀ a : ℝ, Ideal.div (a : EReal) ((100000 : ℝ) : EReal) = ((a / 100000 : ℝ) : EReal) := fun a => by
    rw [Ideal.div_coe h5, ← EReal.coe_mul]; congr 1; ring
  have hS : colSum R c = ((∑ r, x r : ℝ) : EReal) := by
    unfold colSum; rw [← coe_sum]; exact Finset.sum_congr rfl fun r _ => hx r
  have hQ : colSumSq R c = ((∑ r, x r * x r : ℝ) : EReal) := by
    unfold colSumSq; rw [← coe_sum]; exact Finset.sum_congr rfl fun r _ => by rw [hx r, ← EReal.coe_mul]
  have hM : mean R c = (((∑ r, x r) / 100000 : ℝ) : EReal) := by unfold mean; rw [hS, cnt_eq, hdiv]
  unfold varMoments varDev
  rw [hM, hQ, cnt_eq, hdiv]
  have hD : (∑ r : Fin 100000, (R (ix2 r c) - (((∑ r, x r) / 100000 : ℝ) : EReal)) * (R (ix2 r c) - (((∑ r, x r) / 100000 : ℝ) : EReal)))
      = ((∑ r, (x r - (∑ r, x r) / 100000) * (x r - (∑ r, x r) / 100000) : ℝ) : EReal) := by
    rw [← coe_sum]; exact Finset.sum_congr rfl fun r _ => by rw [hx r, ← EReal.coe_sub, ← EReal.coe_mul]
  rw [hD, hdiv, ← EReal.coe_mul, ← EReal.coe_sub]
  exact congrArg _ (variance_real x 100000 (by simp) h5)

end Cert.BatchNorm

end
-- ==== Proof.Graph.lean ====
/-
  The graph stage as one function of the transformed features.

  Both programs send the transformed features `xw = x · W` through the same message passing: self loops are appended to
  the edge list, a node's degree counts the edges ending at it, each edge is weighted by the inverse square roots of
  its endpoints' degrees, the source rows of `xw` are gathered, scaled by the edge weights and added up at the
  destination rows, and the bias is added to every row. Everything except the gathered operand depends on the edge
  list alone. `graph xw e b` is that chain with `xw` a parameter; the reference's value before the rectifier is
  `graph` of its own matrix product.
-/
import proofs.«143240_j15942918603370_1_alg».proof.Proof.RefReadP

noncomputable section

namespace Cert.Bridge

open Cert.ReferenceIdeal Cert.ReferenceIdeal.Gen Cert.ReferenceIdeal.ReadP
open Idealize.ShloMosaic Idealize.ShloMosaic.TcCoe

/-- Gather the source rows of `xw`, scale each by its edge weight, add them up at the destination rows from zero, add
    the bias. -/
def graph (xw : FVec Ideal S100000x64 .f32) (e : IVec S2x1600000 32) (b : FVec Ideal S64 .f32) : FVec Ideal S100000x64 .f32 :=
  addf (F := Ideal)
    (Host.scatterAdd (F := Ideal) scatter_S100000x64_S1700000x1_S1700000x64_1_0_0_1 (val_main_v41 (F := Ideal)) (val_main_v42 (F := Ideal) e)
      (mulf (F := Ideal) (Host.gather gather_S100000x64_S1700000x1_S1700000x64_1_0_n_n_0_1_164 xw (val_main_v36 (F := Ideal) e))
        (val_main_v39 (F := Ideal) e)))
    (val_main_v45 (F := Ideal) b)

set_option maxRecDepth 16384 in
/-- The reference's value before the rectifier is the graph stage of its matrix product. -/
theorem ref_hpre (x0 : FVec Ideal S100000x200 .f32) (x1 : IVec S2x1600000 32) (x2 : FVec Ideal S200x64 .f32) (x3 : FVec Ideal S64 .f32) :
    val_main_v46 (F := Ideal) x0 x1 x2 x3 = graph (val_main_v0 (F := Ideal) x0 x2) x1 x3 := by
  unfold val_main_v46 val_main_v43 val_main_v40 val_main_v37 graph
  rfl

/-! ## The same chain over the edge list's derived arrays

`src` and `dst` are the edge endpoints with the self loops appended, `dinv` the inverse square roots of the degrees
(zero where the degree is zero). An index is wrapped once (a negative one is moved up by the number of nodes) before
it is used to gather. -/

/-- jnp's index normalisation on the 1700000 edge slots: a negative index is moved up by 100000. -/
abbrev wrapIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The weighted aggregation: gather the rows `xw[src]`, scale row `a` by `dinv[src a] * dinv[dst a]`, add the rows up at
    `dst` from zero, add the bias to every row. -/
def graphCore (xw : FVec Ideal S100000x64 .f32) (src dst : IVec S1700000 32) (dinv : FVec Ideal S100000 .f32)
    (b : FVec Ideal S64 .f32) : FVec Ideal S100000x64 .f32 :=
  addf (F := Ideal)
    (Host.scatterAdd (F := Ideal) scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 dst)
      (mulf (F := Ideal)
        (Host.gather gather_S100000x64_S1700000x1_S1700000x64_1_0_n_n_0_1_164 xw
          (broadcastInDim S1700000x1 ![0] bcast_S1700000_S1700000x1_0 (wrapIdx src)))
        (broadcastInDim S1700000x64 ![0, 1] bcast_S1700000x1_S1700000x64_0_1
          (broadcastInDim S1700000x1 ![0] bcast_S1700000_S1700000x1_0
            (mulf (F := Ideal)
              (Host.gather gather_S100000_S1700000x1_S1700000_n_0_n_n_0_1_1 dinv
                (broadcastInDim S1700000x1 ![0] bcast_S1700000_S1700000x1_0 (wrapIdx src)))
              (Host.gather gather_S100000_S1700000x1_S1700000_n_0_n_n_0_1_1 dinv
                (broadcastInDim S1700000x1 ![0] bcast_S1700000_S1700000x1_0 (wrapIdx dst))))))))
    (broadcastInDim S100000x64 ![0, 1] bcast_S1x64_S100000x64_0_1 (broadcastInDim S1x64 ![1] bcast_S64_S1x64_1 b))

set_option maxRecDepth 16384 in
/-- The graph stage is that chain at the edge list's endpoints and inverse root degrees. -/
theorem graph_eq_core (xw : FVec Ideal S100000x64 .f32) (e : IVec S2x1600000 32) (b : FVec Ideal S64 .f32) :
    graph xw e b = graphCore xw (val_main_v4 (F := Ideal) e) (val_main_v7 (F := Ideal) e) (val_main_v15 (F := Ideal) e) b := by
  generalize h4 : val_main_v4 (F := Ideal) e = src
  generalize h7 : val_main_v7 (F := Ideal) e = dst
  generalize h15 : val_main_v15 (F := Ideal) e = dinv
  unfold graph graphCore wrapIdx
  unfold val_main_v41 val_main_cst_8 val_main_v42 val_main_v36 val_main_v35 val_main_v32 val_main_v31 val_main_c_6 val_main_v34 val_main_v33 val_main_c_7
    val_main_v39 val_main_v38 val_main_v30 val_main_v22 val_main_v21 val_main_v20 val_main_v17 val_main_v16 val_main_c val_main_v19 val_main_v18 val_main_c_3
    val_main_v29 val_main_v28 val_main_v27 val_main_v24 val_main_v23 val_main_c_4 val_main_v26 val_main_v25 val_main_c_5 val_main_v45 val_main_v44
  rw [h4, h7, h15]

end Cert.Bridge

end
-- ==== Proof.Region0.lean ====
/-
  The row-tiled matrix product.

  The first region multiplies a 100000 x 200 matrix X by a 200 x 64 matrix W in twenty row blocks: grid point t reads rows
  5000 t .. 5000 t + 4999 of X and the whole of W, and stores the 5000 x 64 product of the two blocks. Entry (p, q) of that
  block product is the sum over k of X (5000 t + p, k) * W (k, q), which is entry (5000 t + p, q) of the whole product
  X W: a row of the product depends on the same row of X only. Every point writes its block back to rows
  5000 t .. 5000 t + 4999 of the output array, and row r lies in the block of point r / 5000, so the twenty blocks tile
  the array and after the region it holds the whole product.
-/
import proofs.«143240_j15942918603370_1_alg».proof.Proof.Gen.KernelIdeal.Frame
import proofs.«143240_j15942918603370_1_alg».proof.Proof.Gen.KernelIdeal.Points
import proofs.«143240_j15942918603370_1_alg».proof.Proof.Gen.KernelIdeal.Launch
import proofs.«143240_j15942918603370_1_alg».proof.Proof.RefReadP
import proofs.«143240_j15942918603370_1_alg».proof.Proof.Spec
import Idealize.ShloMosaic.Lib.Pipeline.Value
import Idealize.ShloMosaic.Lib.ValueIdx
import Idealize.ShloMosaic.PureOps.Ideal.Laws

noncomputable section

namespace Cert.KernelIdeal.KV

open Cert.KernelIdeal Cert.KernelIdeal.Gen Idealize.ShloMosaic Idealize.ShloMosaic.TcCoe Idealize.SL.Sem Idealize.ShloMosaic.ValueIdx Cert.BatchNorm
open Idealize.ShloMosaic.Pipeline (Dat)

variable (V : (c : Dev nD) → (b : Ref sig .tc) → Buf (Elt Ideal) ((c : Thread nD τ).loc b)) (c : Dev nD)

/-! ## The block product at an entry -/

theorem mm_hz : (![0, 0] : Fin 2 → Nat) = fun _ => 0 := funext fun a => by fin_cases a <;> rfl

theorem mm_lhs_0 (i : S5000x64.Idx) (q : dot_S5000x200_S200x64_S5000x64_1_0_0_1_n_n.contr.Idx) :
    (dot_S5000x200_S200x64_S5000x64_1_0_0_1_n_n.lhsIdx i q 0).val = (i 0).val := by
  unfold DotDims.lhsIdx
  rw [dif_neg (show ¬(0 : Fin S5000x200.rank) ∈ dot_S5000x200_S200x64_S5000x64_1_0_0_1_n_n.lhsBatch by decide), dif_pos (show (0 : Fin S5000x200.rank) ∈ dot_S5000x200_S200x64_S5000x64_1_0_0_1_n_n.lhsNonContracting by decide)]
  rfl
theorem mm_lhs_1 (i : S5000x64.Idx) (q : dot_S5000x200_S200x64_S5000x64_1_0_0_1_n_n.contr.Idx) :
    (dot_S5000x200_S200x64_S5000x64_1_0_0_1_n_n.lhsIdx i q 1).val = (q ⟨0, by decide⟩).val :=
  dot_S5000x200_S200x64_S5000x64_1_0_0_1_n_n.lhsIdx_val_of_single rfl i q
theorem mm_rhs_0 (i : S5000x64.Idx) (q : dot_S5000x200_S200x64_S5000x64_1_0_0_1_n_n.contr.Idx) :
    (dot_S5000x200_S200x64_S5000x64_1_0_0_1_n_n.rhsIdx i q 0).val = (q ⟨0, by decide⟩).val :=
  dot_S5000x200_S200x64_S5000x64_1_0_0_1_n_n.rhsIdx_val_of_single rfl i q
theorem mm_rhs_1 (i : S5000x64.Idx) (q : dot_S5000x200_S200x64_S5000x64_1_0_0_1_n_n.contr.Idx) :
    (dot_S5000x200_S200x64_S5000x64_1_0_0_1_n_n.rhsIdx i q 1).val = (i 1).val := by
  unfold DotDims.rhsIdx
  rw [dif_neg (show ¬(1 : Fin S200x64.rank) ∈ dot_S5000x200_S200x64_S5000x64_1_0_0_1_n_n.rhsBatch by decide), dif_pos (show (1 : Fin S200x64.rank) ∈ dot_S5000x200_S200x64_S5000x64_1_0_0_1_n_n.rhsNonContracting by decide)]
  rfl

/-- Entry (p, q) of the product of a 5000 x 200 block and a 200 x 64 block, accumulated into zero: the sum over the
    200 contracted positions of the products of row p of the first and column q of the second. -/
theorem mm_block_apply (x0 : Vec Ideal S5000x200 .f32) (x1 : Vec Ideal S200x64 .f32) (p : Fin 5000) (q : Fin 64) :
    (k0_pay1 (F := Ideal) x0 x1 : S5000x64.Idx → EReal) (ix2 p q) = ∑ k : Fin 200, x0 (ix2 p k) * x1 (ix2 k q) := by
  unfold k0_pay1
  refine (Ideal.matmul_constant_zero_apply dot_S5000x200_S200x64_S5000x64_1_0_0_1_n_n none x0 x1 (ix2 p q)).trans ?_
  rw [← Equiv.sum_comp (contrEquiv1 dot_S5000x200_S200x64_S5000x64_1_0_0_1_n_n 200 rfl rfl).symm]
  refine Finset.sum_congr rfl fun k _ => ?_
  have hk := contrEquiv1_symm_val dot_S5000x200_S200x64_S5000x64_1_0_0_1_n_n 200 rfl rfl k
  have el : dot_S5000x200_S200x64_S5000x64_1_0_0_1_n_n.lhsIdx (ix2 p q) ((contrEquiv1 dot_S5000x200_S200x64_S5000x64_1_0_0_1_n_n 200 rfl rfl).symm k) = ix2 p k := funext fun a => Fin.ext (by
    match a with
    | ⟨0, _⟩ => exact mm_lhs_0 _ _
    | ⟨1, _⟩ => exact (mm_lhs_1 _ _).trans hk)
  have er : dot_S5000x200_S200x64_S5000x64_1_0_0_1_n_n.rhsIdx (ix2 p q) ((contrEquiv1 dot_S5000x200_S200x64_S5000x64_1_0_0_1_n_n 200 rfl rfl).symm k) = ix2 k q := funext fun a => Fin.ext (by
    match a with
    | ⟨0, _⟩ => exact (mm_rhs_0 _ _).trans hk
    | ⟨1, _⟩ => exact mm_rhs_1 _ _)
  rw [el, er]

/-! ## The blocks a point reads and writes -/

/-- The block indices of the three windows at a point: the row block of X and of the output is the point's number, the
    block of W is always the whole of W. -/
theorem mm_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of X at point t is rows 5000 t .. 5000 t + 4999 of X. -/
theorem mm_lhs_block (t : Fin cfg0.N) (x : S5000x200.Idx) (i : S100000x200.Idx)
    (h0 : (i 0).val = 5000 * t.val + (x 0).val) (h1 : (i 1).val = (x 1).val) :
    (iblk0 (F := Ideal) V c 0 t : S5000x200.Idx → EReal) x = (V c main_arg0 : S100000x200.Idx → EReal) i := by
  obtain ⟨e0, e1, -⟩ := mm_idx_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 200 + 1 * (x 1).val = (i 1).val; rw [e1, h1]; omega

/-- The block of W at every point is W. -/
theorem mm_rhs_block (t : Fin cfg0.N) (x : S200x64.Idx) (i : S200x64.Idx)
    (h0 : (i 0).val = (x 0).val) (h1 : (i 1).val = (x 1).val) :
    (iblk0 (F := Ideal) V c 1 t : S200x64.Idx → EReal) x = (V c main_arg2 : S200x64.Idx → EReal) i := by
  obtain ⟨-, -, e0, e1, -⟩ := mm_idx_facts t
  unfold iblk0
  rw [View.read_apply]
  show V c main_arg2 _ = V c main_arg2 _
  congr 1
  funext a
  apply Fin.ext
  match a with
  | ⟨0, _⟩ => show win0_1.index t (0 : Fin 2) * 200 + 1 * (x 0).val = (i 0).val; rw [e0, h0]; omega
  | ⟨1, _⟩ => show win0_1.index t (1 : Fin 2) * 64 + 1 * (x 1).val = (i 1).val; rw [e1, h1]; omega

/-- An entry of the block product at point n, when the first block is rows 5000 n .. of X and the second block is W, is the
    entry of the whole product X W in the same row of the output's block at point n. -/
theorem mm_point (x0 : Vec Ideal S5000x200 .f32) (x1 : Vec Ideal S200x64 .f32)
    (X : (⟨Cert.ReferenceIdeal.S100000x200, .f32⟩ : BufTy).Contents (Elt Ideal)) (W : (⟨Cert.ReferenceIdeal.S200x64, .f32⟩ : BufTy).Contents (Elt Ideal))
    (n : Nat) (y : S5000x64.Idx) (i : Cert.ReferenceIdeal.S100000x64.Idx)
    (hx0 : ∀ (x : S5000x200.Idx) (j : Cert.ReferenceIdeal.S100000x200.Idx), (j 0).val = 5000 * n + (x 0).val → (j 1).val = (x 1).val → x0 x = X j)
    (hx1 : ∀ (x : S200x64.Idx) (j : Cert.ReferenceIdeal.S200x64.Idx), (j 0).val = (x 0).val → (j 1).val = (x 1).val → x1 x = W j)
    (hi0 : (i 0).val = 5000 * n + (y 0).val) (hi1 : (i 1).val = (y 1).val) :
    (k0_pay1 (F := Ideal) x0 x1 : S5000x64.Idx → EReal) y = Cert.ReferenceIdeal.ReadP.val_main_v0 (F := Ideal) X W i := by
  obtain ⟨p, q, rfl⟩ : ∃ (p : Fin 5000) (q : Fin 64), y = ix2 p q := ⟨y 0, y 1, eq_ix2 y⟩
  rw [mm_block_apply, Cert.ReferenceIdeal.ReadP.val_main_v0_apply]
  refine Finset.sum_congr rfl fun k _ => ?_
  rw [hx0 (ix2 p k) (Cert.ReferenceIdeal.ReadP.lidx_main_v0 i k) hi0 rfl, hx1 (ix2 k q) (Cert.ReferenceIdeal.ReadP.ridx_main_v0 i k) rfl hi1]

/-- WHAT POINT t WRITES BACK is rows 5000 t .. 5000 t + 4999 of the whole product. -/
theorem mm_flushed (t : Fin cfg0.N) :
    (dat0 (F := Ideal) V c).flushed 2 t = ((cfg0.win 2).blk t).view.read (Elt Ideal)
      (Cert.ReferenceIdeal.ReadP.val_main_v0 (F := Ideal) (V c main_arg0) (V c main_arg2)) := by
  show (cfg0.win 2).cut (grid0.coords t) ((dat0 V c).after 2 t) = _
  rw [after0_2]
  unfold out0_2
  rw [View.canon_unit_zero mm_hz]
  simp only [View.ld_unit_zero (S := S5000x200) mm_hz, View.ld_unit_zero (S := S200x64) mm_hz]
  obtain ⟨-, -, -, -, e0, e1⟩ := mm_idx_facts t
  funext y
  show (k0_pay1 (F := Ideal) (iblk0 V c 0 t) (iblk0 V c 1 t) : S5000x64.Idx → EReal) y
    = Cert.ReferenceIdeal.ReadP.val_main_v0 (F := Ideal) (V c main_arg0) (V c main_arg2) (((cfg0.win 2).blk t).view.emb y)
  refine mm_point (iblk0 V c 0 t) (iblk0 V c 1 t) (V c main_arg0) (V c main_arg2) t.val y (((cfg0.win 2).blk t).view.emb y)
    (fun x j h0 h1 => mm_lhs_block V c t x j h0 h1) (fun x j h0 h1 => mm_rhs_block V c t x j h0 h1) ?_ ?_
  · show win0_2.index t (0 : Fin 2) * 5000 + 1 * (y 0).val = 5000 * t.val + (y 0).val
    rw [e0]; omega
  · show win0_2.index t (1 : Fin 2) * 64 + 1 * (y 1).val = (y 1).val
    rw [e1]; omega

/-! ## The blocks tile the output -/

/-- An entry of the output array is in point t's block iff each coordinate is in the block's range on its axis. -/
theorem mm_mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Row r of the output is in the block of point r / 5000, which is written back. -/
theorem mm_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_2 t, ?_⟩
  obtain ⟨-, -, -, -, e0, e1⟩ := mm_idx_facts t
  rw [mm_mem_blk]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 64 ≤ (i 1).val ∧ (i 1).val < win0_2.index t (1 : Fin 2) * 64 + 64
    rw [e1]; omega

/-- THE OUTPUT ARRAY after the region is the whole product of the two argument arrays as the region finds them. -/
theorem mm_out : ((dat0 (F := Ideal) V c).arrAt 2 cfg0.N : S100000x64.Idx → EReal)
      = Cert.ReferenceIdeal.ReadP.val_main_v0 (F := Ideal) (V c main_arg0) (V c main_arg2) :=
  (dat0 (F := Ideal) V c).arrAt_eq_of_cover 2 (Cert.ReferenceIdeal.ReadP.val_main_v0 (F := Ideal) (V c main_arg0) (V c main_arg2))
    (fun t _ => mm_flushed V c t) mm_cover

end Cert.KernelIdeal.KV

end
-- ==== Proof.LibSublaneSum.lean ====
/-
  A sum over the sublanes of an a x b array, read at a lane.

  A float reduction with <add> over axis 0 of an a x b array keeps one entry per lane.  Read over the extended
  reals at lane j it is the sum over the a sublanes d of the entry (d, j).  The accumulator and format facts are
  taken as variables, so the statement matches a printed reduction whatever proofs it carries.  (The companion for
  axis 1, a sum over lanes kept per row, is the lane sum of the column forms.)
-/
import Idealize.ShloMosaic.PureOps.Ideal
import Idealize.ShloMosaic.PureOps.Ideal.Laws
import Idealize.ShloMosaic.Lib.ValueIdx

noncomputable section

open scoped BigOperators

namespace Cert.Lib.SublaneSum

open Idealize.ShloMosaic Idealize.ShloMosaic.ValueIdx

/-- Over a lane index j, the source index whose sublane coordinate is d is (d, j). -/
theorem lift_cols {a b : ℕ} (h : (⟨2, ![a, b]⟩ : Shape).Reduces [(0 : Fin 2)] ⟨1, ![b]⟩) (j : Fin b) (d : Fin a) :
    h.lift (ix1 j) d = ix2 d j := by
  funext c
  refine Fin.ext ?_
  match c with
  | ⟨0, _⟩ => rfl
  | ⟨1, _⟩ => rfl

/-- A float sum over the sublanes of an a x b array, at the extended reals and at lane j, is the sum over d of x (d, j). -/
theorem multiReduction_add_cols {a b : ℕ} {φ : FTy} (x : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (j : Fin b) :
    multiReduction .add [(0 : Fin 2)] ⟨1, ![b]⟩ x acc h hφ hacc (ix1 j) = ∑ d : Fin a, x (ix2 d j) := by
  refine (Ideal.multiReduction_add_single x acc h hφ hacc (ix1 j)).trans ?_
  exact Finset.sum_congr rfl fun d _ => congrArg x (lift_cols h j d)

end Cert.Lib.SublaneSum

end
-- ==== Proof.LibSumRuns.lean ====
/-
  Sums taken in runs.

  A sum of `a · b` consecutive terms `f 0, f 1, …` is the sum of its `a` runs of `b` terms, run `d` being
  `f (b · d), …, f (b · d + b − 1)` — in any commutative monoid, so also on the extended reals, where it says that a
  contraction accumulated block by block is the whole contraction. Stated over `Finset.range` and, for a contraction
  index that is a `Fin`, with the inner and the whole sum over `Fin b` and `Fin (a · b)`.
-/
import Idealize.ShloMosaic.PureOps.Ideal

namespace Cert.LibSumRuns

/-- A sum over `a · b` consecutive naturals, taken in `a` runs of `b`. -/
theorem sum_range_mul {M : Type*} [AddCommMonoid M] (f : ℕ → M) (a b : ℕ) :
    ∑ d ∈ Finset.range a, ∑ l ∈ Finset.range b, f (b * d + l) = ∑ k ∈ Finset.range (a * b), f k := by
  induction a with
  | zero => simp
  | succ a ih =>
    rw [Finset.sum_range_succ, ih, Nat.succ_mul, Finset.sum_range_add, Nat.mul_comm b a]

/-- The same with each run indexed by `Fin b` and the whole sum by `Fin (a · b)`. -/
theorem sum_fin_runs {M : Type*} [AddCommMonoid M] (f : ℕ → M) (a b : ℕ) :
    ∑ d ∈ Finset.range a, ∑ l : Fin b, f (b * d + l.val) = ∑ k : Fin (a * b), f k.val := by
  rw [Fin.sum_univ_eq_sum_range (fun k => f k) (a * b), ← sum_range_mul f a b]
  refine Finset.sum_congr rfl fun d _ => ?_
  exact Fin.sum_univ_eq_sum_range (fun l => f (b * d + l)) b

end Cert.LibSumRuns
-- ==== Proof.Region1.lean ====
/-
  The second kernel region, read as values on the extended reals.

  The region walks the 100000 x 64 matrix `h` in twenty blocks of 5000 rows. At each block it writes the rectified
  block `max(h, 0)` to the same rows of the first output, and adds to two one-row accumulators the block's column
  sums of the rectified entries and of their squares; the accumulators are set to zero before the first block and
  written out after the last. So the first output ends as the rectified matrix, and the two rows end, at column `q`,
  as the sum down column `q` of the rectified entries and of their squares: the 100000 terms of a column are added in
  twenty runs of 5000, and addition on the extended reals is commutative and associative, so the grouping is immaterial
  (no finiteness is needed), and the leading zero is neutral.
-/
import proofs.«143240_j15942918603370_1_alg».proof.Proof.Gen.KernelIdeal.Frame
import proofs.«143240_j15942918603370_1_alg».proof.Proof.Spec
import proofs.«143240_j15942918603370_1_alg».proof.Proof.LibSublaneSum
import proofs.«143240_j15942918603370_1_alg».proof.Proof.LibSumRuns
import Idealize.ShloMosaic.Lib.Pipeline.Value
import Idealize.ShloMosaic.Lib.ValueLayout
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

/-! ## What each case of the body leaves in each output buffer

The body has one conditional: at grid point 0 it first stores a zero row into each of the two accumulators. After
that, at every point, it reads the block `x` of 5000 rows, stores the rectified block into the first output, and
stores into each accumulator its previous contents plus the block's column sums (of the rectified entries, and of
their squares). Each buffer is written through its whole rectangle, so what a case leaves is the last payload. -/

namespace Cert.KernelIdeal.KV.R1

open Cert.KernelIdeal Cert.KernelIdeal.Gen Cert.BatchNorm

section Pieces
variable {F : FTy → Type} [FloatOps F]

theorem hz : (![0, 0] : Fin 2 → Nat) = fun _ => 0 := funext fun a => by fin_cases a <;> rfl

/-- Points 1 to 19, first output: the rectified block. -/
theorem out_B_1 (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond1_0 i)
    (x : Vec F S5000x64 .f32) (xo2 xo3 : Vec F S1x64 .f32) :
    out1_B_1 c i a1 h1 a2 h2 a3 h3 a4 h4 hc x xo2 xo3 = k1_pay3 x := by
  unfold out1_B_1
  rw [View.read_writes_eq_canon _ _ _ (cover1_B_1 c i a1 h1 a2 h2 a3 h3 a4 h4 hc x xo2 xo3)]
  unfold kernelRun1_B
  dsimp only
  rw [View.canon_unit_zero hz]
  simp only [View.readAt_eq_ld, h1.read_unread, View.ld_unit_zero (S := S5000x64) hz]

/-- Points 1 to 19, the accumulator of sums: its previous contents `xo2` plus the block's column sums. -/
theorem out_B_2 (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond1_0 i)
    (x : Vec F S5000x64 .f32) (xo2 xo3 : Vec F S1x64 .f32) :
    out1_B_2 c i a1 h1 a2 h2 a3 h3 a4 h4 hc x xo2 xo3 = k1_pay4 x xo2 := by
  unfold out1_B_2
  rw [View.read_writes_eq_canon _ _ _ (cover1_B_2 c i a1 h1 a2 h2 a3 h3 a4 h4 hc x xo2 xo3)]
  unfold kernelRun1_B
  dsimp only
  rw [View.canon_unit_zero hz]
  simp only [View.readAt_eq_ld, h1.read_unread, h3.read_unread, View.ld_unit_zero (S := S5000x64) hz,
    View.ld_unit_zero (S := S1x64) hz]

/-- Points 1 to 19, the accumulator of squares: its previous contents `xo3` plus the block's column sums of squares. -/
theorem out_B_3 (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : ¬cond1_0 i)
    (x : Vec F S5000x64 .f32) (xo2 xo3 : Vec F S1x64 .f32) :
    out1_B_3 c i a1 h1 a2 h2 a3 h3 a4 h4 hc x xo2 xo3 = k1_pay5 x xo3 := by
  unfold out1_B_3
  rw [View.read_writes_eq_canon _ _ _ (cover1_B_3 c i a1 h1 a2 h2 a3 h3 a4 h4 hc x xo2 xo3)]
  unfold kernelRun1_B
  dsimp only
  rw [View.canon_unit_zero hz]
  simp only [View.readAt_eq_ld, h1.read_unread, h4.read_unread, View.ld_unit_zero (S := S5000x64) hz,
    View.ld_unit_zero (S := S1x64) hz]

/-- Point 0, first output: the rectified block. -/
theorem out_A_1 (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond1_0 i)
    (x : Vec F S5000x64 .f32) :
    out1_A_1 c i a1 h1 a2 h2 a3 h3 a4 h4 hc x = k1_pay3 x := by
  unfold out1_A_1
  rw [View.read_writes_eq_canon _ _ _ (cover1_A_1 c i a1 h1 a2 h2 a3 h3 a4 h4 hc x)]
  unfold kernelRun1_A
  dsimp only
  sl_unfold_words
  rw [View.canon_unit_zero hz]
  simp only [View.readAt_eq_ld, h1.read_unread, View.ld_unit_zero (S := S5000x64) hz]

/-- Point 0, the accumulator of sums: the zero row just stored, read back, plus the block's column sums. -/
theorem out_A_2 (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond1_0 i)
    (x : Vec F S5000x64 .f32) :
    out1_A_2 c i a1 h1 a2 h2 a3 h3 a4 h4 hc x = k1_pay4 x k1_pay1 := by
  unfold out1_A_2
  rw [View.read_writes_eq_canon _ _ _ (cover1_A_2 c i a1 h1 a2 h2 a3 h3 a4 h4 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S5000x64) hz]

/-- Point 0, the accumulator of squares: the zero row just stored, read back, plus the block's column sums of squares. -/
theorem out_A_3 (c : Dev nD) (i : grid1.Coords) (a1 : Memref sig .tc .vmem S5000x64 .f32) (h1 : a1.IsWhole)
    (a2 : Memref sig .tc .vmem S5000x64 .f32) (h2 : a2.IsWhole) (a3 : Memref sig .tc .vmem S1x64 .f32) (h3 : a3.IsWhole)
    (a4 : Memref sig .tc .vmem S1x64 .f32) (h4 : a4.IsWhole) (hc : cond1_0 i)
    (x : Vec F S5000x64 .f32) :
    out1_A_3 c i a1 h1 a2 h2 a3 h3 a4 h4 hc x = k1_pay5 x k1_pay2 := by
  unfold out1_A_3
  rw [View.read_writes_eq_canon _ _ _ (cover1_A_3 c i a1 h1 a2 h2 a3 h3 a4 h4 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S5000x64) hz]

end Pieces

/-! ## The payloads on the extended reals, entry by entry -/

section Payloads

/-- The rectified block: every entry's maximum with zero (the broadcast word is the zero of the extended reals). -/
theorem pay3_apply (v : Vec Ideal S5000x64 .f32) (i : S5000x64.Idx) :
    (k1_pay3 (F := Ideal) v : S5000x64.Idx → EReal) i = max (v i) 0 := by
  unfold k1_pay3
  rw [maximumf_apply, shapeCast_self, broadcast_apply]
  show max (v i) (Ideal.ofBits .f32 0x00000000#32) = max (v i) 0
  rw [Ideal.ofBits_zero_f32]

/-- The zero row stored at point 0. -/
theorem pay1_apply (j : S1x64.Idx) : (k1_pay1 (F := Ideal) : S1x64.Idx → EReal) j = 0 := by
  unfold k1_pay1
  rw [broadcast_apply]
  show Ideal.ofBits .f32 0x00000000#32 = 0
  rw [Ideal.ofBits_zero_f32]

theorem pay2_apply (j : S1x64.Idx) : (k1_pay2 (F := Ideal) : S1x64.Idx → EReal) j = 0 := by
  unfold k1_pay2
  rw [broadcast_apply]
  show Ideal.ofBits .f32 0x00000000#32 = 0
  rw [Ideal.ofBits_zero_f32]

/-- The accumulator of sums after a point: at column `q`, what it held plus the sum down the block's 5000 rows of
    the rectified entries. -/
theorem pay4_apply (v : Vec Ideal S5000x64 .f32) (acc : Vec Ideal S1x64 .f32) (q : Fin 64) :
    (k1_pay4 (F := Ideal) v acc : S1x64.Idx → EReal) (ix2 0 q) = acc (ix2 0 q) + ∑ d : Fin 5000, max (v (ix2 d q)) 0 := by
  unfold k1_pay4
  dsimp only
  rw [addf_apply, shapeCast_self]
  refine congrArg (acc (ix2 0 q) + ·) ?_
  refine (shapeCast_a_1a_apply _ shapeCasts_S64_S1x64 0 q).trans ?_
  refine (Cert.Lib.SublaneSum.multiReduction_add_cols (a := 5000) (b := 64) (k1_pay3 (F := Ideal) v) 0x00000000#32
    reduces_S5000x64_S64 (.inl rfl) rfl q).trans ?_
  exact Finset.sum_congr rfl fun d _ => pay3_apply v (ix2 d q)

/-- The accumulator of squares after a point: what it held plus the sum down the block's rows of the squares of the
    rectified entries. -/
theorem pay5_apply (v : Vec Ideal S5000x64 .f32) (acc : Vec Ideal S1x64 .f32) (q : Fin 64) :
    (k1_pay5 (F := Ideal) v acc : S1x64.Idx → EReal) (ix2 0 q)
      = acc (ix2 0 q) + ∑ d : Fin 5000, max (v (ix2 d q)) 0 * max (v (ix2 d q)) 0 := by
  unfold k1_pay5
  dsimp only
  rw [addf_apply, shapeCast_self]
  refine congrArg (acc (ix2 0 q) + ·) ?_
  refine (shapeCast_a_1a_apply _ shapeCasts_S64_S1x64 0 q).trans ?_
  refine (Cert.Lib.SublaneSum.multiReduction_add_cols (a := 5000) (b := 64)
    (mulf (k1_pay3 (F := Ideal) v) (k1_pay3 (F := Ideal) v)) 0x00000000#32
    reduces_S5000x64_S64 (.inl rfl) rfl q).trans ?_
  refine Finset.sum_congr rfl fun d _ => ?_
  rw [mulf_apply, pay3_apply]

end Payloads

/-! ## The blocks are runs of rows

Block `t` of the input is rows `5000 t` to `5000 t + 4999` of the matrix, all 64 columns; the first output's block
`t` is the same rows. A column of the matrix is read as a sequence indexed by the row number, so that the twenty
blocks are twenty consecutive runs of 5000 terms. -/

section Region
variable (V : (c : Dev nD) → (b : Ref sig .tc) → Buf (Elt Ideal) ((c : Thread nD τ).loc b)) (c : Dev nD)

/-- The index maps of the input window and of the first output, decided over the grid: block `t` starts at row block
    `t` and column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0)

/-- Column `q` of `g` applied to every entry of `H`, as a sequence in the row number (zero past the last row). -/
def colFn (g : EReal → EReal) (H : Mat) (q : Fin 64) : ℕ → EReal :=
  fun r => if h : r < 100000 then g (H (ix2 ⟨r, h⟩ q)) else 0

/-- The twenty runs of 5000 terms of a column add up to the sum down the whole column: addition on the extended reals
    is commutative and associative, so the grouping does not matter. -/
theorem sum_colFn (g : EReal → EReal) (H : Mat) (q : Fin 64) :
    ∑ k ∈ Finset.range 20, ∑ d : Fin 5000, colFn g H q (5000 * k + d.val) = ∑ r : Fin 100000, g (H (ix2 r q)) := by
  rw [Cert.LibSumRuns.sum_fin_runs (colFn g H q) 20 5000]
  show ∑ k : Fin 100000, colFn g H q k.val = _
  exact Finset.sum_congr rfl fun r _ => by unfold colFn; rw [dif_pos r.isLt]

/-- Entry `(d, q)` of the input's block `t` is entry `(5000 t + d, q)` of the matrix. -/
theorem iblk_apply (g : EReal → EReal) (t : Fin cfg1.N) (d : Fin 5000) (q : Fin 64) :
    g ((iblk1 V c 0 t : S5000x64.Idx → EReal) (ix2 d q)) = colFn g (V c main_v46) q (5000 * t.val + d.val) := by
  have hN : t.val < 20 := lt_of_lt_of_eq t.isLt (show cfg1.N = 20 from N_1)
  have hd : d.val < 5000 := d.isLt
  obtain ⟨e0, e1, -, -⟩ := idx_facts t
  unfold colFn
  rw [dif_pos (by omega)]
  refine congrArg g ?_
  unfold iblk1
  rw [View.read_apply]
  show V c main_v46 (((cfg1.win 0).blk t).view.emb (ix2 d q)) = V c main_v46 (ix2 ⟨5000 * t.val + d.val, _⟩ q)
  refine congrArg (V c main_v46) ?_
  funext a
  apply Fin.ext
  match a with
  | ⟨0, _⟩ => show win1_0.index t (0 : Fin 2) * 5000 + 1 * d.val = 5000 * t.val + d.val; rw [e0]; omega
  | ⟨1, _⟩ => show win1_0.index t (1 : Fin 2) * 64 + 1 * q.val = q.val; rw [e1]; omega

/-! ## What the output buffers hold after each point -/

/-- The entry rectified. -/
abbrev rect : EReal → EReal := fun x => max x 0
/-- The square of the entry rectified. -/
abbrev rectSq : EReal → EReal := fun x => max x 0 * max x 0

/-- After every point the first output's buffer holds the rectified block, in either case of the conditional. -/
theorem outs_1 (t : Fin cfg1.N) : (outsAt1 V c t.val t.isLt).1 = k1_pay3 (iblk1 V c 0 t) := by
  by_cases h0 : t.val % 20 = 0
  · rw [outsAt1_A V c t h0]
    dsimp only
    exact out_A_1 (F := Ideal) c (grid1.coords t) (ms1_0 t) (hs1_0 t) (ms1_1 t) (hs1_1 t) (ms1_2 t) (hs1_2 t) (ms1_3 t) (hs1_3 t) ((hcond1_0 t).mpr h0) (iblk1 V c 0 t)
  · rw [outsAt1_B V c t h0]
    dsimp only
    exact out_B_1 (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t)
      (outsAt1 V c (t.val - 1) (Nat.lt_of_le_of_lt (Nat.sub_le _ _) t.isLt)).2.1 (outsAt1 V c (t.val - 1) (Nat.lt_of_le_of_lt (Nat.sub_le _ _) t.isLt)).2.2

/-- At point 0 the accumulator of sums holds the first block's column sums: the zero row plus them. -/
theorem base_2 (t : Fin cfg1.N) (h0 : t.val % 20 = 0) (q : Fin 64) :
    ((outsAt1 V c t.val t.isLt).2.1 : S1x64.Idx → EReal) (ix2 0 q)
      = ∑ d : Fin 5000, colFn rect (V c main_v46) q (5000 * t.val + d.val) := by
  rw [outsAt1_A V c t h0]
  dsimp only
  refine (congrFun (out_A_2 (F := Ideal) c (grid1.coords t) (ms1_0 t) (hs1_0 t) (ms1_1 t) (hs1_1 t) (ms1_2 t) (hs1_2 t) (ms1_3 t) (hs1_3 t) ((hcond1_0 t).mpr h0) (iblk1 V c 0 t)) (ix2 0 q)).trans ?_
  refine (pay4_apply (iblk1 V c 0 t) (k1_pay1 (F := Ideal)) q).trans ?_
  refine (congrArg (· + ∑ d : Fin 5000, rect ((iblk1 V c 0 t : S5000x64.Idx → EReal) (ix2 d q))) (pay1_apply (ix2 0 q))).trans ?_
  refine (zero_add _).trans ?_
  exact Finset.sum_congr rfl fun d _ => iblk_apply V c rect t d q

/-- At a later point it holds what it held after the point before, plus this block's column sums. -/
theorem step_2 (t : Fin cfg1.N) (h0 : ¬t.val % 20 = 0) (q : Fin 64) :
    ((outsAt1 V c t.val t.isLt).2.1 : S1x64.Idx → EReal) (ix2 0 q)
      = ((outsAt1 V c (t.val - 1) (Nat.lt_of_le_of_lt (Nat.sub_le _ _) t.isLt)).2.1 : S1x64.Idx → EReal) (ix2 0 q)
        + ∑ d : Fin 5000, colFn rect (V c main_v46) q (5000 * t.val + d.val) := by
  rw [outsAt1_B V c t h0]
  dsimp only
  refine (congrFun (out_B_2 (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t)
    (outsAt1 V c (t.val - 1) (Nat.lt_of_le_of_lt (Nat.sub_le _ _) t.isLt)).2.1 (outsAt1 V c (t.val - 1) (Nat.lt_of_le_of_lt (Nat.sub_le _ _) t.isLt)).2.2) (ix2 0 q)).trans ?_
  refine (pay4_apply (iblk1 V c 0 t) (outsAt1 V c (t.val - 1) (Nat.lt_of_le_of_lt (Nat.sub_le _ _) t.isLt)).2.1 q).trans ?_
  exact congrArg (((outsAt1 V c (t.val - 1) (Nat.lt_of_le_of_lt (Nat.sub_le _ _) t.isLt)).2.1 : S1x64.Idx → EReal) (ix2 0 q) + ·)
    (Finset.sum_congr rfl fun d _ => iblk_apply V c rect t d q)

/-- So after point `n` it holds the sum of the first `n + 1` runs of the column: by induction on the point. -/
theorem acc_2 (q : Fin 64) : ∀ (n : ℕ) (h : n < cfg1.N),
    ((outsAt1 V c n h).2.1 : S1x64.Idx → EReal) (ix2 0 q)
      = ∑ k ∈ Finset.range (n + 1), ∑ d : Fin 5000, colFn rect (V c main_v46) q (5000 * k + d.val)
  | 0, h => by
    rw [Finset.sum_range_one]
    exact base_2 V c ⟨0, h⟩ (Nat.zero_mod 20) q
  | n + 1, h => by
    have hN : cfg1.N = 20 := N_1
    have hB : ¬(⟨n + 1, h⟩ : Fin cfg1.N).val % 20 = 0 := by dsimp only; omega
    rw [Finset.sum_range_succ, ← acc_2 q n (Nat.lt_of_succ_lt h)]
    exact step_2 V c ⟨n + 1, h⟩ hB q

/-- At point 0 the accumulator of squares holds the first block's column sums: the zero row plus them. -/
theorem base_3 (t : Fin cfg1.N) (h0 : t.val % 20 = 0) (q : Fin 64) :
    ((outsAt1 V c t.val t.isLt).2.2 : S1x64.Idx → EReal) (ix2 0 q)
      = ∑ d : Fin 5000, colFn rectSq (V c main_v46) q (5000 * t.val + d.val) := by
  rw [outsAt1_A V c t h0]
  dsimp only
  refine (congrFun (out_A_3 (F := Ideal) c (grid1.coords t) (ms1_0 t) (hs1_0 t) (ms1_1 t) (hs1_1 t) (ms1_2 t) (hs1_2 t) (ms1_3 t) (hs1_3 t) ((hcond1_0 t).mpr h0) (iblk1 V c 0 t)) (ix2 0 q)).trans ?_
  refine (pay5_apply (iblk1 V c 0 t) (k1_pay2 (F := Ideal)) q).trans ?_
  refine (congrArg (· + ∑ d : Fin 5000, rectSq ((iblk1 V c 0 t : S5000x64.Idx → EReal) (ix2 d q))) (pay2_apply (ix2 0 q))).trans ?_
  refine (zero_add _).trans ?_
  exact Finset.sum_congr rfl fun d _ => iblk_apply V c rectSq t d q

/-- At a later point it holds what it held after the point before, plus this block's column sums. -/
theorem step_3 (t : Fin cfg1.N) (h0 : ¬t.val % 20 = 0) (q : Fin 64) :
    ((outsAt1 V c t.val t.isLt).2.2 : S1x64.Idx → EReal) (ix2 0 q)
      = ((outsAt1 V c (t.val - 1) (Nat.lt_of_le_of_lt (Nat.sub_le _ _) t.isLt)).2.2 : S1x64.Idx → EReal) (ix2 0 q)
        + ∑ d : Fin 5000, colFn rectSq (V c main_v46) q (5000 * t.val + d.val) := by
  rw [outsAt1_B V c t h0]
  dsimp only
  refine (congrFun (out_B_3 (F := Ideal) c (grid1.coords t) (ms1_0 t) (hs1_0 t) (ms1_1 t) (hs1_1 t) (ms1_2 t) (hs1_2 t) (ms1_3 t) (hs1_3 t) (fun h => h0 ((hcond1_0 t).mp h)) (iblk1 V c 0 t)
    (outsAt1 V c (t.val - 1) (Nat.lt_of_le_of_lt (Nat.sub_le _ _) t.isLt)).2.1 (outsAt1 V c (t.val - 1) (Nat.lt_of_le_of_lt (Nat.sub_le _ _) t.isLt)).2.2) (ix2 0 q)).trans ?_
  refine (pay5_apply (iblk1 V c 0 t) (outsAt1 V c (t.val - 1) (Nat.lt_of_le_of_lt (Nat.sub_le _ _) t.isLt)).2.2 q).trans ?_
  exact congrArg (((outsAt1 V c (t.val - 1) (Nat.lt_of_le_of_lt (Nat.sub_le _ _) t.isLt)).2.2 : S1x64.Idx → EReal) (ix2 0 q) + ·)
    (Finset.sum_congr rfl fun d _ => iblk_apply V c rectSq t d q)

/-- So after point `n` it holds the sum of the first `n + 1` runs of the column: by induction on the point. -/
theorem acc_3 (q : Fin 64) : ∀ (n : ℕ) (h : n < cfg1.N),
    ((outsAt1 V c n h).2.2 : S1x64.Idx → EReal) (ix2 0 q)
      = ∑ k ∈ Finset.range (n + 1), ∑ d : Fin 5000, colFn rectSq (V c main_v46) q (5000 * k + d.val)
  | 0, h => by
    rw [Finset.sum_range_one]
    exact base_3 V c ⟨0, h⟩ (Nat.zero_mod 20) q
  | n + 1, h => by
    have hN : cfg1.N = 20 := N_1
    have hB : ¬(⟨n + 1, h⟩ : Fin cfg1.N).val % 20 = 0 := by dsimp only; omega
    rw [Finset.sum_range_succ, ← acc_3 q n (Nat.lt_of_succ_lt h)]
    exact step_3 V c ⟨n + 1, h⟩ hB q

/-! ## From blocks to the arrays

The first output is written back at every point, block `t` into rows `5000 t …`: row `r` is covered by point
`r / 5000`. The two accumulators are written back once, after point 19, and their one block is the whole array. -/

/-- What point `t` writes back of the first output is block `t` of the rectified matrix. -/
theorem flushed_1 (t : Fin cfg1.N) :
    (dat1 (F := Ideal) V c).flushed 1 t = ((cfg1.win 1).blk t).view.read (Elt Ideal) (relu (V c main_v46)) := by
  show (cfg1.win 1).cut (grid1.coords t) ((dat1 V c).after 1 t) = _
  rw [after1_1, outs_1 V c t]
  obtain ⟨e0, e1, e2, e3⟩ := idx_facts t
  funext j
  show (k1_pay3 (F := Ideal) (iblk1 V c 0 t) : S5000x64.Idx → EReal) j = relu (V c main_v46) (((cfg1.win 1).blk t).view.emb j)
  refine (pay3_apply (iblk1 V c 0 t) j).trans ?_
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; rw [e0, e2]
    | ⟨1, _⟩ => show win1_0.index t (1 : Fin 2) * 64 + 1 * (j 1).val = win1_1.index t (1 : Fin 2) * 64 + 1 * (j 1).val; rw [e1, e3]
  unfold relu
  refine congrArg (fun x : EReal => max x 0) ?_
  unfold iblk1
  rw [View.read_apply]
  show V c main_v46 (((cfg1.win 0).blk t).view.emb j) = V c main_v46 (((cfg1.win 1).blk t).view.emb j)
  rw [h0]

/-- An index of the first output is in point `t`'s block iff each coordinate is in the block's range. -/
theorem mem_blk_1 (t : Fin cfg1.N) (i : S100000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v47_0).slice (win1_1.rect t)).set ↔ _
  rw [View.set_slice_whole, Rect.mem_set_unit]
  exact Iff.rfl

/-- Every entry of the first output lies in the block of the point its row belongs to. -/
theorem cover_1 (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, e2, e3⟩ := idx_facts t
  refine ⟨t, flush1_1 t, ?_⟩
  rw [mem_blk_1]
  intro a
  match a with
  | ⟨0, _⟩ => show win1_1.index t (0 : Fin 2) * 5000 ≤ (i 0).val ∧ (i 0).val < win1_1.index t (0 : Fin 2) * 5000 + 5000
              rw [e2, ht]; omega
  | ⟨1, _⟩ => show win1_1.index t (1 : Fin 2) * 64 ≤ (i 1).val ∧ (i 1).val < win1_1.index t (1 : Fin 2) * 64 + 64
              rw [e3]; omega

/-- The accumulator's block index is (0, 0) at every point, decided over the grid. -/
theorem idx_facts_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- After the last point the accumulator holds the sum down the whole column: twenty runs of 5000 rows. -/
theorem last_2 (t : Fin cfg1.N) (h19 : t.val = 19) :
    ((outsAt1 V c t.val t.isLt).2.1 : S1x64.Idx → EReal) = fun j => colSum (relu (V c main_v46)) (j 1) := by
  funext j
  obtain ⟨p, q, rfl⟩ : ∃ (p : Fin 1) (q : Fin 64), j = ix2 p q := ⟨j 0, j 1, eq_ix2 j⟩
  obtain rfl : p = 0 := Subsingleton.elim _ _
  rw [acc_2 V c q t.val t.isLt, h19]
  unfold colSum relu
  exact sum_colFn rect (V c main_v46) q

/-- The one write-back, after the last point, writes that row: block (0, 0) of the one-row array is the whole array. -/
theorem flushed_2 (t : Fin cfg1.N) (hf : (cfg1.win 2).flush t = true) :
    (dat1 (F := Ideal) V c).flushed 2 t
      = ((cfg1.win 2).blk t).view.read (Elt Ideal) (fun j : S1x64.Idx => colSum (relu (V c main_v46)) (j 1)) := by
  have hN : t.val < 20 := lt_of_lt_of_eq t.isLt (show cfg1.N = 20 from N_1)
  have h19 : t.val = 19 := by have := (flush1_2 t).mp hf; omega
  obtain ⟨e0, e1⟩ := idx_facts_2 t
  show (cfg1.win 2).cut (grid1.coords t) ((dat1 V c).after 2 t) = _
  rw [after1_2, last_2 V c t h19]
  have hz' : (fun a => win1_2.index t a * main_v47_1.ty.shape.size a) = fun _ => 0 := funext fun a => by
    match a with
    | ⟨0, _⟩ => show win1_2.index t (0 : Fin 2) * 1 = 0; rw [e0]
    | ⟨1, _⟩ => show win1_2.index t (1 : Fin 2) * 64 = 0; rw [e1]
  exact (Memref.read_access_unit_zero (Elt Ideal) main_v47_1 hz' (fun a => by rw [congrFun hz' a]; simp)
    (fun j : S1x64.Idx => colSum (relu (V c main_v46)) (j 1))).symm

/-- An index of the one-row array is in a point's block iff each coordinate is in the block's range. -/
theorem mem_blk_2 (t : Fin cfg1.N) (i : S1x64.Idx) :
    i ∈ ((cfg1.win 2).blk t).view.set ↔ ∀ a : Fin 2, win1_2.index t a * S1x64.size a ≤ (i a).val ∧ (i a).val < win1_2.index t a * S1x64.size a + S1x64.size a := by
  show i ∈ ((View.whole main_v47_1).slice (win1_2.rect t)).set ↔ _
  rw [View.set_slice_whole, Rect.mem_set_unit]
  exact Iff.rfl

/-- The last point's block covers the whole one-row array. -/
theorem cover_2 (i : S1x64.Idx) :
    ∃ t : Fin cfg1.N, (cfg1.win 2).flush t = true ∧ i ∈ ((cfg1.win 2).blk t).view.set := by
  have h0 : (i 0).val < 1 := (i 0).isLt
  have h1 : (i 1).val < 64 := (i 1).isLt
  obtain ⟨t, ht⟩ : ∃ t : Fin cfg1.N, t.val = 19 := ⟨⟨19, by rw [show cfg1.N = 20 from N_1]; decide⟩, rfl⟩
  obtain ⟨e0, e1⟩ := idx_facts_2 t
  refine ⟨t, (flush1_2 t).mpr (by rw [ht]), ?_⟩
  rw [mem_blk_2]
  intro a
  match a with
  | ⟨0, _⟩ => show win1_2.index t (0 : Fin 2) * 1 ≤ (i 0).val ∧ (i 0).val < win1_2.index t (0 : Fin 2) * 1 + 1
              rw [e0]; omega
  | ⟨1, _⟩ => show win1_2.index t (1 : Fin 2) * 64 ≤ (i 1).val ∧ (i 1).val < win1_2.index t (1 : Fin 2) * 64 + 64
              rw [e1]; omega

/-- The accumulator's block index is (0, 0) at every point, decided over the grid. -/
theorem idx_facts_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- After the last point the accumulator holds the sum down the whole column: twenty runs of 5000 rows. -/
theorem last_3 (t : Fin cfg1.N) (h19 : t.val = 19) :
    ((outsAt1 V c t.val t.isLt).2.2 : S1x64.Idx → EReal) = fun j => colSumSq (relu (V c main_v46)) (j 1) := by
  funext j
  obtain ⟨p, q, rfl⟩ : ∃ (p : Fin 1) (q : Fin 64), j = ix2 p q := ⟨j 0, j 1, eq_ix2 j⟩
  obtain rfl : p = 0 := Subsingleton.elim _ _
  rw [acc_3 V c q t.val t.isLt, h19]
  unfold colSumSq relu
  exact sum_colFn rectSq (V c main_v46) q

/-- The one write-back, after the last point, writes that row: block (0, 0) of the one-row array is the whole array. -/
theorem flushed_3 (t : Fin cfg1.N) (hf : (cfg1.win 3).flush t = true) :
    (dat1 (F := Ideal) V c).flushed 3 t
      = ((cfg1.win 3).blk t).view.read (Elt Ideal) (fun j : S1x64.Idx => colSumSq (relu (V c main_v46)) (j 1)) := by
  have hN : t.val < 20 := lt_of_lt_of_eq t.isLt (show cfg1.N = 20 from N_1)
  have h19 : t.val = 19 := by have := (flush1_3 t).mp hf; omega
  obtain ⟨e0, e1⟩ := idx_facts_3 t
  show (cfg1.win 3).cut (grid1.coords t) ((dat1 V c).after 3 t) = _
  rw [after1_3, last_3 V c t h19]
  have hz' : (fun a => win1_3.index t a * main_v47_2.ty.shape.size a) = fun _ => 0 := funext fun a => by
    match a with
    | ⟨0, _⟩ => show win1_3.index t (0 : Fin 2) * 1 = 0; rw [e0]
    | ⟨1, _⟩ => show win1_3.index t (1 : Fin 2) * 64 = 0; rw [e1]
  exact (Memref.read_access_unit_zero (Elt Ideal) main_v47_2 hz' (fun a => by rw [congrFun hz' a]; simp)
    (fun j : S1x64.Idx => colSumSq (relu (V c main_v46)) (j 1))).symm

/-- An index of the one-row array is in a point's block iff each coordinate is in the block's range. -/
theorem mem_blk_3 (t : Fin cfg1.N) (i : S1x64.Idx) :
    i ∈ ((cfg1.win 3).blk t).view.set ↔ ∀ a : Fin 2, win1_3.index t a * S1x64.size a ≤ (i a).val ∧ (i a).val < win1_3.index t a * S1x64.size a + S1x64.size a := by
  show i ∈ ((View.whole main_v47_2).slice (win1_3.rect t)).set ↔ _
  rw [View.set_slice_whole, Rect.mem_set_unit]
  exact Iff.rfl

/-- The last point's block covers the whole one-row array. -/
theorem cover_3 (i : S1x64.Idx) :
    ∃ t : Fin cfg1.N, (cfg1.win 3).flush t = true ∧ i ∈ ((cfg1.win 3).blk t).view.set := by
  have h0 : (i 0).val < 1 := (i 0).isLt
  have h1 : (i 1).val < 64 := (i 1).isLt
  obtain ⟨t, ht⟩ : ∃ t : Fin cfg1.N, t.val = 19 := ⟨⟨19, by rw [show cfg1.N = 20 from N_1]; decide⟩, rfl⟩
  obtain ⟨e0, e1⟩ := idx_facts_3 t
  refine ⟨t, (flush1_3 t).mpr (by rw [ht]), ?_⟩
  rw [mem_blk_3]
  intro a
  match a with
  | ⟨0, _⟩ => show win1_3.index t (0 : Fin 2) * 1 ≤ (i 0).val ∧ (i 0).val < win1_3.index t (0 : Fin 2) * 1 + 1
              rw [e0]; omega
  | ⟨1, _⟩ => show win1_3.index t (1 : Fin 2) * 64 ≤ (i 1).val ∧ (i 1).val < win1_3.index t (1 : Fin 2) * 64 + 64
              rw [e1]; omega

end Region
end Cert.KernelIdeal.KV.R1

/-! ## The three output arrays of the region -/

namespace Cert.KernelIdeal.KV

open Cert.KernelIdeal Cert.KernelIdeal.Gen Cert.BatchNorm

variable (V : (c : Dev nD) → (b : Ref sig .tc) → Buf (Elt Ideal) ((c : Thread nD τ).loc b)) (c : Dev nD)

/-- The first output array ends holding the rectified matrix. -/
theorem relu_out : ((dat1 (F := Ideal) V c).arrAt 1 cfg1.N : S100000x64.Idx → EReal) = relu (V c main_v46) :=
  (dat1 (F := Ideal) V c).arrAt_eq_of_cover 1 (relu (V c main_v46)) (fun t _ => R1.flushed_1 V c t) (R1.cover_1)

/-- The second ends holding, at column `q`, the sum down column `q` of the rectified matrix. -/
theorem sum_out (j : S1x64.Idx) :
    ((dat1 (F := Ideal) V c).arrAt 2 cfg1.N : S1x64.Idx → EReal) j = colSum (relu (V c main_v46)) (j 1) :=
  congrFun ((dat1 (F := Ideal) V c).arrAt_eq_of_cover 2 (fun j : S1x64.Idx => colSum (relu (V c main_v46)) (j 1))
    (R1.flushed_2 V c) (R1.cover_2)) j

/-- The third ends holding the sum of squares down column `q`. -/
theorem sumsq_out (j : S1x64.Idx) :
    ((dat1 (F := Ideal) V c).arrAt 3 cfg1.N : S1x64.Idx → EReal) j = colSumSq (relu (V c main_v46)) (j 1) :=
  congrFun ((dat1 (F := Ideal) V c).arrAt_eq_of_cover 3 (fun j : S1x64.Idx => colSumSq (relu (V c main_v46)) (j 1))
    (R1.flushed_3 V c) (R1.cover_3)) j

end Cert.KernelIdeal.KV

end
-- ==== Proof.Region2.lean ====
/-
  The batch-norm normalisation, row block by row block.

  The third region reads a 100000 x 64 matrix H in twenty blocks of 5000 rows, together with four rows of 64 entries each
  (mean, variance, scale, shift), which every grid point reads whole. Point t stores, for row p of its block and column q,
      (H (5000 t + p, q) - mean q) * rsqrt (variance q + eps) * scale q + shift q :
  each of the four rows is laid along every row of the block, and the arithmetic is entry by entry. An entry of the result
  depends on the entry of H in the same place and on column q of the four rows only, so each stored block is the
  corresponding row block of the normalised matrix. Every point writes its block back to rows 5000 t .. 5000 t + 4999 of
  the output array, row r lies in the block of point r / 5000, and so after the region the array is the normalised matrix.
-/
import proofs.«143240_j15942918603370_1_alg».proof.Proof.Gen.KernelIdeal.Frame
import proofs.«143240_j15942918603370_1_alg».proof.Proof.Gen.KernelIdeal.Points
import proofs.«143240_j15942918603370_1_alg».proof.Proof.Gen.KernelIdeal.Launch
import proofs.«143240_j15942918603370_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.TcCoe Idealize.SL.Sem Idealize.ShloMosaic.ValueIdx Cert.BatchNorm
open Idealize.ShloMosaic.Pipeline (Dat)

variable (V : (c : Dev nD) → (b : Ref sig .tc) → Buf (Elt Ideal) ((c : Thread nD τ).loc b)) (c : Dev nD)

/-! ## The stored block at an entry -/

theorem norm_hz : (![0, 0] : Fin 2 → Nat) = fun _ => 0 := funext fun a => by fin_cases a <;> rfl

/-- One row laid along the 5000 rows of a block reads, in row p and column q, the row's entry q. -/
theorem norm_row (v : Vec Ideal S1x64 .f32) (p : Fin 5000) (q : Fin 64) :
    (broadcastTo S5000x64 v broadcasts_S1x64_S5000x64 : S5000x64.Idx → EReal) (ix2 p q) = v (ix2 0 q) :=
  broadcastTo_1b_ab_apply v broadcasts_S1x64_S5000x64 p q

/-- Entry (p, q) of the block the body stores, from the blocks it loads (the variance row, the matrix block, the mean
    row, the scale row, the shift row): centre, scale by the reciprocal square root of the shifted variance, then the
    affine map of column q. -/
theorem norm_block_apply (v0 : Vec Ideal S1x64 .f32) (v5 : Vec Ideal S5000x64 .f32) (v7 v13 v17 : Vec Ideal S1x64 .f32)
    (p : Fin 5000) (q : Fin 64) :
    (k2_pay1 (F := Ideal) v0 v5 v7 v13 v17 : S5000x64.Idx → EReal) (ix2 p q)
      = (v5 (ix2 p q) - v7 (ix2 0 q)) * Ideal.rsqrt (v0 (ix2 0 q) + eps) * v13 (ix2 0 q) + v17 (ix2 0 q) := by
  unfold k2_pay1
  simp only [shapeCast_self]
  rw [addf_apply, mulf_apply, mulf_apply, subf_apply, norm_row, norm_row, norm_row, norm_row]
  rfl

/-- An entry of the block stored at point n, when the matrix block is rows 5000 n .. of R and the four rows are mu, v, g, b,
    is the entry of the normalised matrix in the same row of the output's block at point n. -/
theorem norm_point (x0 : Vec Ideal S5000x64 .f32) (x1 x2 x3 x4 : Vec Ideal S1x64 .f32)
    (R : Mat) (mu v g b : Fin 64 → EReal) (n : Nat) (y : S5000x64.Idx) (i : S100000x64.Idx)
    (hx0 : ∀ (x : S5000x64.Idx) (j : S100000x64.Idx), (j 0).val = 5000 * n + (x 0).val → (j 1).val = (x 1).val → x0 x = R j)
    (hx1 : ∀ q : Fin 64, x1 (ix2 0 q) = mu q) (hx2 : ∀ q : Fin 64, x2 (ix2 0 q) = v q)
    (hx3 : ∀ q : Fin 64, x3 (ix2 0 q) = g q) (hx4 : ∀ q : Fin 64, x4 (ix2 0 q) = b q)
    (hi0 : (i 0).val = 5000 * n + (y 0).val) (hi1 : (i 1).val = (y 1).val) :
    (k2_pay1 (F := Ideal) x2 x0 x1 x3 x4 : S5000x64.Idx → EReal) y = affine R mu v g b i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext hi1
  rw [norm_block_apply]
  show _ = (R (ix2 r s) - mu s) * Ideal.rsqrt (v s + eps) * g s + b s
  rw [hx0 (ix2 p s) (ix2 r s) hi0 rfl, hx1, hx2, hx3, hx4]

/-! ## The blocks a point reads and writes -/

/-- The block indices of the six windows at a point: the row block of the matrix and of the output is the point's number,
    each of the four rows is always read whole. -/
theorem norm_idx_facts : ∀ t : Fin cfg2.N, (win2_0.index t (0 : Fin 2) = t.val ∧ win2_0.index t (1 : Fin 2) = 0)
    ∧ (win2_5.index t (0 : Fin 2) = t.val ∧ win2_5.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0) :=
  (by decide +kernel : ∀ t : Fin grid2.N, _)

/-- The matrix block at point t is rows 5000 t .. 5000 t + 4999 of the matrix. -/
theorem norm_mat_block (t : Fin cfg2.N) (x : S5000x64.Idx) (i : S100000x64.Idx)
    (h0 : (i 0).val = 5000 * t.val + (x 0).val) (h1 : (i 1).val = (x 1).val) :
    (iblk2 (F := Ideal) V c 0 t : S5000x64.Idx → EReal) x = (V c main_v47_0 : S100000x64.Idx → EReal) i := by
  obtain ⟨⟨e0, e1⟩, -⟩ := norm_idx_facts t
  unfold iblk2
  rw [View.read_apply]
  show V c main_v47_0 _ = V c main_v47_0 _
  congr 1
  funext a
  apply Fin.ext
  match a with
  | ⟨0, _⟩ => show win2_0.index t (0 : Fin 2) * 5000 + 1 * (x 0).val = (i 0).val; rw [e0, h0]; omega
  | ⟨1, _⟩ => show win2_0.index t (1 : Fin 2) * 64 + 1 * (x 1).val = (i 1).val; rw [e1, h1]; omega

/-- The block of the mean row at every point is the whole row. -/
theorem norm_row_block_1 (t : Fin cfg2.N) (q : Fin 64) :
    (iblk2 (F := Ideal) V c 1 t : S1x64.Idx → EReal) (ix2 0 q) = (V c main_v49 : S1x64.Idx → EReal) (ix2 0 q) := by
  have e0 : win2_1.index t (0 : Fin 2) = 0 := (norm_idx_facts t).2.2.1.1
  have e1 : win2_1.index t (1 : Fin 2) = 0 := (norm_idx_facts t).2.2.1.2
  unfold iblk2
  rw [View.read_apply]
  show V c main_v49 _ = V c main_v49 _
  congr 1
  funext a
  apply Fin.ext
  match a with
  | ⟨0, _⟩ => show win2_1.index t (0 : Fin 2) * 1 + 1 * 0 = 0; rw [e0]
  | ⟨1, _⟩ => show win2_1.index t (1 : Fin 2) * 64 + 1 * q.val = q.val; rw [e1]; omega

/-- The block of the variance row at every point is the whole row. -/
theorem norm_row_block_2 (t : Fin cfg2.N) (q : Fin 64) :
    (iblk2 (F := Ideal) V c 2 t : S1x64.Idx → EReal) (ix2 0 q) = (V c main_v53 : S1x64.Idx → EReal) (ix2 0 q) := by
  have e0 : win2_2.index t (0 : Fin 2) = 0 := (norm_idx_facts t).2.2.2.1.1
  have e1 : win2_2.index t (1 : Fin 2) = 0 := (norm_idx_facts t).2.2.2.1.2
  unfold iblk2
  rw [View.read_apply]
  show V c main_v53 _ = V c main_v53 _
  congr 1
  funext a
  apply Fin.ext
  match a with
  | ⟨0, _⟩ => show win2_2.index t (0 : Fin 2) * 1 + 1 * 0 = 0; rw [e0]
  | ⟨1, _⟩ => show win2_2.index t (1 : Fin 2) * 64 + 1 * q.val = q.val; rw [e1]; omega

/-- The block of the scale row at every point is the whole row. -/
theorem norm_row_block_3 (t : Fin cfg2.N) (q : Fin 64) :
    (iblk2 (F := Ideal) V c 3 t : S1x64.Idx → EReal) (ix2 0 q) = (V c main_v54 : S1x64.Idx → EReal) (ix2 0 q) := by
  have e0 : win2_3.index t (0 : Fin 2) = 0 := (norm_idx_facts t).2.2.2.2.1.1
  have e1 : win2_3.index t (1 : Fin 2) = 0 := (norm_idx_facts t).2.2.2.2.1.2
  unfold iblk2
  rw [View.read_apply]
  show V c main_v54 _ = V c main_v54 _
  congr 1
  funext a
  apply Fin.ext
  match a with
  | ⟨0, _⟩ => show win2_3.index t (0 : Fin 2) * 1 + 1 * 0 = 0; rw [e0]
  | ⟨1, _⟩ => show win2_3.index t (1 : Fin 2) * 64 + 1 * q.val = q.val; rw [e1]; omega

/-- The block of the shift row at every point is the whole row. -/
theorem norm_row_block_4 (t : Fin cfg2.N) (q : Fin 64) :
    (iblk2 (F := Ideal) V c 4 t : S1x64.Idx → EReal) (ix2 0 q) = (V c main_v55 : S1x64.Idx → EReal) (ix2 0 q) := by
  have e0 : win2_4.index t (0 : Fin 2) = 0 := (norm_idx_facts t).2.2.2.2.2.1
  have e1 : win2_4.index t (1 : Fin 2) = 0 := (norm_idx_facts t).2.2.2.2.2.2
  unfold iblk2
  rw [View.read_apply]
  show V c main_v55 _ = V c main_v55 _
  congr 1
  funext a
  apply Fin.ext
  match a with
  | ⟨0, _⟩ => show win2_4.index t (0 : Fin 2) * 1 + 1 * 0 = 0; rw [e0]
  | ⟨1, _⟩ => show win2_4.index t (1 : Fin 2) * 64 + 1 * q.val = q.val; rw [e1]; omega

/-- WHAT POINT t WRITES BACK is rows 5000 t .. 5000 t + 4999 of the normalised matrix. -/
theorem norm_flushed (t : Fin cfg2.N) :
    (dat2 (F := Ideal) V c).flushed 5 t = ((cfg2.win 5).blk t).view.read (Elt Ideal)
      (affine (V c main_v47_0) (fun q => V c main_v49 (ix2 0 q)) (fun q => V c main_v53 (ix2 0 q))
        (fun q => V c main_v54 (ix2 0 q)) (fun q => V c main_v55 (ix2 0 q))) := by
  show (cfg2.win 5).cut (grid2.coords t) ((dat2 V c).after 5 t) = _
  rw [after2_5]
  unfold out2_5
  rw [View.canon_unit_zero norm_hz]
  simp only [View.ld_unit_zero (S := S5000x64) norm_hz, View.ld_unit_zero (S := S1x64) norm_hz]
  obtain ⟨-, ⟨e0, e1⟩, -⟩ := norm_idx_facts t
  funext y
  show (k2_pay1 (F := Ideal) (iblk2 V c 2 t) (iblk2 V c 0 t) (iblk2 V c 1 t) (iblk2 V c 3 t) (iblk2 V c 4 t) : S5000x64.Idx → EReal) y
    = affine (V c main_v47_0) (fun q => V c main_v49 (ix2 0 q)) (fun q => V c main_v53 (ix2 0 q))
        (fun q => V c main_v54 (ix2 0 q)) (fun q => V c main_v55 (ix2 0 q)) (((cfg2.win 5).blk t).view.emb y)
  refine norm_point (iblk2 V c 0 t) (iblk2 V c 1 t) (iblk2 V c 2 t) (iblk2 V c 3 t) (iblk2 V c 4 t)
    (V c main_v47_0) (fun q => V c main_v49 (ix2 0 q)) (fun q => V c main_v53 (ix2 0 q))
    (fun q => V c main_v54 (ix2 0 q)) (fun q => V c main_v55 (ix2 0 q)) t.val y (((cfg2.win 5).blk t).view.emb y)
    (fun x j h0 h1 => norm_mat_block V c t x j h0 h1)
    (fun q => norm_row_block_1 V c t q) (fun q => norm_row_block_2 V c t q)
    (fun q => norm_row_block_3 V c t q) (fun q => norm_row_block_4 V c t q) ?_ ?_
  · show win2_5.index t (0 : Fin 2) * 5000 + 1 * (y 0).val = 5000 * t.val + (y 0).val
    rw [e0]; omega
  · show win2_5.index t (1 : Fin 2) * 64 + 1 * (y 1).val = (y 1).val
    rw [e1]; omega

/-! ## The blocks tile the output -/

/-- An entry of the output array is in point t's block iff each coordinate is in the block's range on its axis. -/
theorem norm_mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v56).slice (win2_5.rect t)).set ↔ _
  rw [View.set_slice_whole, Rect.mem_set_unit]
  exact Iff.rfl

/-- Row r of the output is in the block of point r / 5000, which is written back. -/
theorem norm_cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_5 t, ?_⟩
  obtain ⟨-, ⟨e0, e1⟩, -⟩ := norm_idx_facts t
  rw [norm_mem_blk]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 64 ≤ (i 1).val ∧ (i 1).val < win2_5.index t (1 : Fin 2) * 64 + 64
    rw [e1]; omega

/-- THE OUTPUT ARRAY after the region is the normalised matrix of the five arrays as the region finds them. -/
theorem norm_out : ((dat2 (F := Ideal) V c).arrAt 5 cfg2.N : S100000x64.Idx → EReal)
      = affine (V c main_v47_0) (fun q => V c main_v49 (ix2 0 q)) (fun q => V c main_v53 (ix2 0 q))
          (fun q => V c main_v54 (ix2 0 q)) (fun q => V c main_v55 (ix2 0 q)) :=
  (dat2 (F := Ideal) V c).arrAt_eq_of_cover 5
    (affine (V c main_v47_0) (fun q => V c main_v49 (ix2 0 q)) (fun q => V c main_v53 (ix2 0 q))
      (fun q => V c main_v54 (ix2 0 q)) (fun q => V c main_v55 (ix2 0 q)))
    (fun t _ => norm_flushed V c t) norm_cover

end Cert.KernelIdeal.KV

end
-- ==== Proof.KStats.lean ====
/-
  The column statistics between the second and the third region.

  After the second region the buffers hold the rectified matrix and two rows of 64 entries: the column sums and the column
  sums of squares. Ten host operations then prepare the third region's inputs. Two of them divide the two rows entry by
  entry by the number of rows (a constant laid along a row of 64): the mean of column q is sum q / n and the mean of
  squares is sumsq q / n. One multiplies the mean row by itself and one subtracts: the variance of column q is
  sumsq q / n - mean q * mean q. The last two lay the scale and the shift vectors of 64 entries out as rows. None of the ten
  writes the rectified matrix, which the third region therefore finds as the second left it; and no operation or region
  before that writes the scale or the shift argument, which are as launched.
-/
import proofs.«143240_j15942918603370_1_alg».proof.Proof.Gen.KernelIdeal.Frame
import proofs.«143240_j15942918603370_1_alg».proof.Proof.Gen.KernelIdeal.Launch
import proofs.«143240_j15942918603370_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KV

open Cert.KernelIdeal Cert.KernelIdeal.Gen Idealize.ShloMosaic Idealize.ShloMosaic.TcCoe Idealize.SL.Sem Idealize.ShloMosaic.ValueIdx Idealize.ShloMosaic.StableHlo Cert.BatchNorm

variable (m : (ℓ : Loc nD τ sig) → Buf (Elt Ideal) ℓ) (ρ : Dev nD → PrngReg) (c : Dev nD)

/-! ## The two layout operations at an entry -/

/-- The number of rows laid along a row of 64 reads the number everywhere. -/
theorem stats_cnt_row (j : S1x64.Idx) :
    (broadcastInDim S1x64 ![] bcast_S_S1x64 (constant (F := Ideal) S_ .f32 0x47C35000#32) : S1x64.Idx → EReal) j = cnt :=
  (broadcastInDim_apply ![] bcast_S_S1x64 (constant (F := Ideal) S_ .f32 0x47C35000#32) j ix0 (fun a => a.elim0)).trans rfl

/-- A vector of 64 entries laid out as a 1 x 64 row reads, in column q, its entry q. -/
theorem stats_vec_row (x : S64.Idx → EReal) (q : Fin 64) :
    (broadcastInDim S1x64 ![1] bcast_S64_S1x64_1 x : S1x64.Idx → EReal) (ix2 0 q) = x (ix1 q) :=
  broadcastInDim_apply ![1] bcast_S64_S1x64_1 x (ix2 0 q) (ix1 q) (fun a => by
    match a with
    | ⟨0, _⟩ => show q.val = if (64 : ℕ) = 1 then 0 else q.val; rw [if_neg (by decide)])

/-! ## The rectified matrix is not touched -/

/-- The third region finds the rectified matrix as the second region left it: none of the ten operations writes it. -/
theorem v6_relu : (V6 (F := Ideal) m ρ c main_v47_0 : S100000x64.Idx → EReal) = W5 (F := Ideal) m ρ c (Proc.devRef .tc main_v47_0) :=
  StableHlo.after_of_forall_not_mem (b := Proc.devRef .tc main_v47_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The mean and the variance rows -/

/-- The mean row: the row of column sums divided entry by entry by the number of rows. -/
theorem v6_mean (q : Fin 64) : (V6 (F := Ideal) m ρ c main_v49 : S1x64.Idx → EReal) (ix2 0 q)
    = Ideal.div ((W5 (F := Ideal) m ρ c (Proc.devRef .tc main_v47_1) : S1x64.Idx → EReal) (ix2 0 q)) cnt := by
  show (StableHlo.after hostOps2 (W5 (F := Ideal) m ρ c) (Proc.devRef .tc main_v49) : S1x64.Idx → EReal) (ix2 0 q) = _
  generalize W5 (F := Ideal) m ρ c = W
  dsimp only [hostOps2]
  after_results
  show Ideal.div (W (Proc.devRef .tc main_v47_1) (ix2 0 q))
    ((broadcastInDim S1x64 ![] bcast_S_S1x64 (constant (F := Ideal) S_ .f32 0x47C35000#32) : S1x64.Idx → EReal) (ix2 0 q)) = _
  rw [stats_cnt_row]

/-- The variance row: the row of column sums of squares divided by the number of rows, minus the square of the mean row
    (the mean row being the row of column sums divided by the number of rows). -/
theorem v6_var (q : Fin 64) : (V6 (F := Ideal) m ρ c main_v53 : S1x64.Idx → EReal) (ix2 0 q)
    = Ideal.div ((W5 (F := Ideal) m ρ c (Proc.devRef .tc main_v47_2) : S1x64.Idx → EReal) (ix2 0 q)) cnt
      - Ideal.div ((W5 (F := Ideal) m ρ c (Proc.devRef .tc main_v47_1) : S1x64.Idx → EReal) (ix2 0 q)) cnt
        * Ideal.div ((W5 (F := Ideal) m ρ c (Proc.devRef .tc main_v47_1) : S1x64.Idx → EReal) (ix2 0 q)) cnt := by
  show (StableHlo.after hostOps2 (W5 (F := Ideal) m ρ c) (Proc.devRef .tc main_v53) : S1x64.Idx → EReal) (ix2 0 q) = _
  generalize W5 (F := Ideal) m ρ c = W
  dsimp only [hostOps2]
  after_results
  show Ideal.div (W (Proc.devRef .tc main_v47_2) (ix2 0 q))
      ((broadcastInDim S1x64 ![] bcast_S_S1x64 (constant (F := Ideal) S_ .f32 0x47C35000#32) : S1x64.Idx → EReal) (ix2 0 q))
    - Ideal.div (W (Proc.devRef .tc main_v47_1) (ix2 0 q))
        ((broadcastInDim S1x64 ![] bcast_S_S1x64 (constant (F := Ideal) S_ .f32 0x47C35000#32) : S1x64.Idx → EReal) (ix2 0 q))
      * Ideal.div (W (Proc.devRef .tc main_v47_1) (ix2 0 q))
        ((broadcastInDim S1x64 ![] bcast_S_S1x64 (constant (F := Ideal) S_ .f32 0x47C35000#32) : S1x64.Idx → EReal) (ix2 0 q)) = _
  rw [stats_cnt_row]

/-! ## The scale and the shift rows -/

/-- The scale argument is as launched when the second region ends: no host operation and no region before that writes it. -/
theorem stats_w5_arg4 : W5 (F := Ideal) m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

/-- The shift argument is as launched when the second region ends: no host operation and no region before that writes it. -/
theorem stats_w5_arg5 : W5 (F := Ideal) m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

/-- The scale row the third region finds is the scale argument laid out as a row. -/
theorem v6_gamma (q : Fin 64) : (V6 (F := Ideal) m ρ c main_v54 : S1x64.Idx → EReal) (ix2 0 q) = m ((c : Thread nD τ).loc main_arg4) (ix1 q) := by
  show (StableHlo.after hostOps2 (W5 (F := Ideal) m ρ c) (Proc.devRef .tc main_v54) : S1x64.Idx → EReal) (ix2 0 q) = _
  have h := stats_w5_arg4 m ρ c
  generalize W5 (F := Ideal) m ρ c = W at h ⊢
  dsimp only [hostOps2]
  after_results
  rw [h]
  exact stats_vec_row _ q

/-- The shift row the third region finds is the shift argument laid out as a row. -/
theorem v6_beta (q : Fin 64) : (V6 (F := Ideal) m ρ c main_v55 : S1x64.Idx → EReal) (ix2 0 q) = m ((c : Thread nD τ).loc main_arg5) (ix1 q) := by
  show (StableHlo.after hostOps2 (W5 (F := Ideal) m ρ c) (Proc.devRef .tc main_v55) : S1x64.Idx → EReal) (ix2 0 q) = _
  have h := stats_w5_arg5 m ρ c
  generalize W5 (F := Ideal) m ρ c = W at h ⊢
  dsimp only [hostOps2]
  after_results
  rw [h]
  exact stats_vec_row _ q

end Cert.KernelIdeal.KV

end
-- ==== Proof.KHost.lean ====
/-
  The kernel's graph stretch, read at the buffer the rectifier's region takes.

  Between the matrix product and the rectifier the kernel's @main runs the graph stage on the host, in three
  stretches: the edge endpoints with the self loops appended, the degrees and their inverse roots' two ingredients;
  the selection that puts zero where the degree is zero; and the gathers, the edge weights, the weighted aggregation
  and the bias. Each stretch is read against the contents it starts from, whatever they are, so the three readings
  compose: the region's input array holds the graph stage of what the first region left in the product's array, of
  the edge list and of the bias. No host operation writes an argument array or the product's array.
-/
import proofs.«143240_j15942918603370_1_alg».proof.Proof.Gen.KernelIdeal.Frame
import proofs.«143240_j15942918603370_1_alg».proof.Proof.Graph
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo
open Cert.ReferenceIdeal.ReadP (val_main_v4 val_main_v7 val_main_v13 val_main_v14 val_main_v15)

/-! ## Each stretch against arbitrary starting contents -/

section Stretches

variable (W : Valuation τ sig (Elt Ideal))

/-- First stretch: the source endpoints with the self loops appended. -/
theorem s1_src : (StableHlo.after hostOps1 W (Proc.devRef .tc main_v4) : S1700000.Idx → BitVec 32)
    = val_main_v4 (F := Ideal) (W (Proc.devRef .tc main_arg1)) := by
  dsimp only [hostOps1]; after_results; rfl
/-- First stretch: the destination endpoints with the self loops appended. -/
theorem s1_dst : (StableHlo.after hostOps1 W (Proc.devRef .tc main_v7) : S1700000.Idx → BitVec 32)
    = val_main_v7 (F := Ideal) (W (Proc.devRef .tc main_arg1)) := by
  dsimp only [hostOps1]; after_results; rfl
/-- First stretch: where the degree is positive. -/
theorem s1_pos : (StableHlo.after hostOps1 W (Proc.devRef .tc main_v13) : S100000.Idx → BitVec 1)
    = val_main_v13 (F := Ideal) (W (Proc.devRef .tc main_arg1)) := by
  dsimp only [hostOps1]; after_results; rfl
/-- First stretch: the inverse roots of the degrees. -/
theorem s1_rsqrt : (StableHlo.after hostOps1 W (Proc.devRef .tc main_v14) : S100000.Idx → EReal)
    = val_main_v14 (F := Ideal) (W (Proc.devRef .tc main_arg1)) := by
  dsimp only [hostOps1]; after_results; rfl
/-- First stretch: the zero the selection falls back to. -/
theorem s1_zero : (StableHlo.after hostOps1 W (Proc.devRef .tc main_cst_2) : S_.Idx → EReal)
    = constant (F := Ideal) S_ .f32 0x00000000#32 := by
  dsimp only [hostOps1]; after_results
/-- The first stretch writes neither the product's array nor the bias. -/
theorem s1_xw : StableHlo.after hostOps1 W (Proc.devRef .tc main_v0) = W (Proc.devRef .tc main_v0) := by
  dsimp only [hostOps1]; after_results
theorem s1_bias : StableHlo.after hostOps1 W (Proc.devRef .tc main_arg3) = W (Proc.devRef .tc main_arg3) := by
  dsimp only [hostOps1]; after_results

/-- Second stretch: the inverse root degrees, zero where the degree is zero — from contents that hold the first
    stretch's three ingredients. -/
theorem s2_dinv (e : IVec Cert.ReferenceIdeal.S2x1600000 32)
    (h13 : (W (Proc.devRef .tc main_v13) : S100000.Idx → BitVec 1) = val_main_v13 (F := Ideal) e)
    (h14 : (W (Proc.devRef .tc main_v14) : S100000.Idx → EReal) = val_main_v14 (F := Ideal) e)
    (h0 : (W (Proc.devRef .tc main_cst_2) : S_.Idx → EReal) = constant (F := Ideal) S_ .f32 0x00000000#32) :
    (StableHlo.after hostOps1_1 W (Proc.devRef .tc main_v15) : S100000.Idx → EReal) = val_main_v15 (F := Ideal) e := by
  dsimp only [hostOps1_1]; after_results
  show select (W (Proc.devRef .tc main_v13) : S100000.Idx → BitVec 1) (W (Proc.devRef .tc main_v14) : S100000.Idx → EReal)
      (broadcastInDim S100000 ![] bcast_S_S100000 (W (Proc.devRef .tc main_cst_2) : S_.Idx → EReal)) = _
  rw [h13, h14, h0]
  rfl
/-- The second stretch writes none of the endpoints, the product's array, the bias. -/
theorem s2_src : StableHlo.after hostOps1_1 W (Proc.devRef .tc main_v4) = W (Proc.devRef .tc main_v4) := by
  dsimp only [hostOps1_1]; after_results
theorem s2_dst : StableHlo.after hostOps1_1 W (Proc.devRef .tc main_v7) = W (Proc.devRef .tc main_v7) := by
  dsimp only [hostOps1_1]; after_results
theorem s2_xw : StableHlo.after hostOps1_1 W (Proc.devRef .tc main_v0) = W (Proc.devRef .tc main_v0) := by
  dsimp only [hostOps1_1]; after_results
theorem s2_bias : StableHlo.after hostOps1_1 W (Proc.devRef .tc main_arg3) = W (Proc.devRef .tc main_arg3) := by
  dsimp only [hostOps1_1]; after_results

set_option maxHeartbeats 2000000 in
/-- Third stretch: the weighted aggregation and the bias, from contents that hold the endpoints, the inverse root
    degrees, the product and the bias. -/
theorem s3_hpre : (StableHlo.after hostOps1_2 W (Proc.devRef .tc main_v46) : S100000x64.Idx → EReal)
    = Cert.Bridge.graphCore (W (Proc.devRef .tc main_v0)) (W (Proc.devRef .tc main_v4)) (W (Proc.devRef .tc main_v7))
        (W (Proc.devRef .tc main_v15)) (W (Proc.devRef .tc main_arg3)) := by
  dsimp only [hostOps1_2]; after_results_simp
  generalize (W (Proc.devRef .tc main_v0) : S100000x64.Idx → EReal) = xw
  generalize (W (Proc.devRef .tc main_v4) : S1700000.Idx → BitVec 32) = src
  generalize (W (Proc.devRef .tc main_v7) : S1700000.Idx → BitVec 32) = dst
  generalize (W (Proc.devRef .tc main_v15) : S100000.Idx → EReal) = dinv
  generalize (W (Proc.devRef .tc main_arg3) : S64.Idx → EReal) = b
  unfold Cert.Bridge.graphCore Cert.Bridge.wrapIdx
  rfl

end Stretches

/-! ## The three stretches after the first region -/

variable (m : (ℓ : Loc nD τ sig) → Buf (Elt Ideal) ℓ) (ρ : Dev nD → PrngReg) (c : Dev nD)

/-- After the first region the edge list and the bias still hold their launch contents. -/
theorem W1_arg1 : W1 (F := Ideal) m ρ c (Proc.devRef .tc main_arg1) = m ((c : Thread nD τ).loc main_arg1) :=
  (W1_of_ne m ρ c main_arg1 (by decide)).trans rfl
theorem W1_arg3 : W1 (F := Ideal) m ρ c (Proc.devRef .tc main_arg3) = m ((c : Thread nD τ).loc main_arg3) :=
  (W1_of_ne m ρ c main_arg3 (by decide)).trans rfl

/-- THE GRAPH STRETCH: what the rectifier's region finds in its input array is the graph stage of what the first
    region left in the product's array, of the edge list and of the bias. -/
theorem hpre_eq : (W4 (F := Ideal) m ρ c (Proc.devRef .tc main_v46) : S100000x64.Idx → EReal)
    = Cert.Bridge.graph (W1 (F := Ideal) m ρ c (Proc.devRef .tc main_v0)) (m ((c : Thread nD τ).loc main_arg1))
        (m ((c : Thread nD τ).loc main_arg3)) := by
  show StableHlo.after hostOps1_2 (StableHlo.after hostOps1_1 (StableHlo.after hostOps1 (W1 (F := Ideal) m ρ c)))
      (Proc.devRef .tc main_v46) = _
  rw [Cert.Bridge.graph_eq_core, ← W1_arg1 m ρ c, ← W1_arg3 m ρ c]
  generalize W1 (F := Ideal) m ρ c = W
  rw [s3_hpre, s2_xw, s2_src, s2_dst, s2_bias,
    s2_dinv _ (W (Proc.devRef .tc main_arg1)) (s1_pos W) (s1_rsqrt W) (s1_zero W),
    s1_xw, s1_src, s1_dst, s1_bias]

end Cert.KernelIdeal.KV

end
-- ==== Proof.KValue.lean ====
/-
  The kernel's result as one function of the launch memory.

  The program is three kernel regions joined by host operations. The first region leaves the product `x · W` of two
  launch arrays; the host's graph stage turns it into the pre-activation; the second region leaves the rectified
  pre-activation together with its column sums and column sums of squares; the host divides those by the number of
  rows to get the mean row and the variance row (mean of squares minus squared mean) and lays the scale and shift
  arguments out as rows; the third region normalises the rectified matrix by those four rows. Each step's result is
  the next step's operand, so the result buffer is the composition: the rectified pre-activation, centred by its
  column means, scaled by the inverse root of its column variances plus the offset, then scaled and shifted.
-/
import proofs.«143240_j15942918603370_1_alg».proof.Proof.Gen.KernelIdeal.Frame
import proofs.«143240_j15942918603370_1_alg».proof.Proof.Spec
import proofs.«143240_j15942918603370_1_alg».proof.Proof.Graph
import proofs.«143240_j15942918603370_1_alg».proof.Proof.Region0
import proofs.«143240_j15942918603370_1_alg».proof.Proof.Region1
import proofs.«143240_j15942918603370_1_alg».proof.Proof.Region2
import proofs.«143240_j15942918603370_1_alg».proof.Proof.KStats
import proofs.«143240_j15942918603370_1_alg».proof.Proof.KHost

noncomputable section

namespace Cert.KernelIdeal.KV

open Cert.KernelIdeal Cert.KernelIdeal.Gen Idealize.ShloMosaic Idealize.ShloMosaic.TcCoe Idealize.SL.Sem Idealize.ShloMosaic.ValueIdx Cert.BatchNorm

variable (m : (ℓ : Loc nD τ sig) → Buf (Elt Ideal) ℓ) (ρ : Dev nD → PrngReg) (c : Dev nD)

/-- The pre-activation: the graph stage of the product of the launch arrays. -/
abbrev preAct : Mat :=
  Cert.Bridge.graph (Cert.ReferenceIdeal.ReadP.val_main_v0 (F := Ideal) (m ((c : Thread nD τ).loc main_arg0)) (m ((c : Thread nD τ).loc main_arg2)))
    (m ((c : Thread nD τ).loc main_arg1)) (m ((c : Thread nD τ).loc main_arg3))

/-- The first region leaves the product of the two launch arrays it reads. -/
theorem k_xw : (W1 (F := Ideal) m ρ c (Proc.devRef .tc main_v0) : S100000x64.Idx → EReal)
    = Cert.ReferenceIdeal.ReadP.val_main_v0 (F := Ideal) (m ((c : Thread nD τ).loc main_arg0)) (m ((c : Thread nD τ).loc main_arg2)) :=
  (W1_arr m ρ c 2).trans (mm_out (V0 m ρ) c)

/-- The second region is entered with the pre-activation: the host's graph stage applied to what the first region left. -/
theorem k_pre : (W4 (F := Ideal) m ρ c (Proc.devRef .tc main_v46) : S100000x64.Idx → EReal) = preAct m c :=
  (hpre_eq m ρ c).trans
    (congrArg (fun xw => Cert.Bridge.graph xw (m ((c : Thread nD τ).loc main_arg1)) (m ((c : Thread nD τ).loc main_arg3)))
      (k_xw m ρ c))

/-- The second region leaves the rectified pre-activation, -/
theorem k_relu : (W5 (F := Ideal) m ρ c (Proc.devRef .tc main_v47_0) : S100000x64.Idx → EReal) = relu (preAct m c) :=
  ((W5_arr m ρ c 1).trans (relu_out (V4 m ρ) c)).trans (congrArg relu (k_pre m ρ c))

/-- its column sums, -/
theorem k_sum (q : Fin 64) :
    (W5 (F := Ideal) m ρ c (Proc.devRef .tc main_v47_1) : S1x64.Idx → EReal) (ix2 0 q) = colSum (relu (preAct m c)) q :=
  ((congrFun (W5_arr m ρ c 2) (ix2 0 q)).trans (sum_out (V4 m ρ) c (ix2 0 q))).trans
    (congrArg (fun H : Mat => colSum (relu H) q) (k_pre m ρ c))

/-- and the column sums of its squares. -/
theorem k_sumsq (q : Fin 64) :
    (W5 (F := Ideal) m ρ c (Proc.devRef .tc main_v47_2) : S1x64.Idx → EReal) (ix2 0 q) = colSumSq (relu (preAct m c)) q :=
  ((congrFun (W5_arr m ρ c 3) (ix2 0 q)).trans (sumsq_out (V4 m ρ) c (ix2 0 q))).trans
    (congrArg (fun H : Mat => colSumSq (relu H) q) (k_pre m ρ c))

/-- So the third region finds the mean row of the rectified pre-activation -/
theorem k_mean (q : Fin 64) :
    (V6 (F := Ideal) m ρ c main_v49 : S1x64.Idx → EReal) (ix2 0 q) = mean (relu (preAct m c)) q :=
  (v6_mean m ρ c q).trans (congrArg (fun s : EReal => Ideal.div s cnt) (k_sum m ρ c q))

/-- and its variance row, by moments. -/
theorem k_var (q : Fin 64) :
    (V6 (F := Ideal) m ρ c main_v53 : S1x64.Idx → EReal) (ix2 0 q) = varMoments (relu (preAct m c)) q :=
  (v6_var m ρ c q).trans
    (congrArg₂ (fun (s t : EReal) => Ideal.div s cnt - Ideal.div t cnt * Ideal.div t cnt) (k_sumsq m ρ c q)
      (k_sum m ρ c q))

/-- THE KERNEL'S RESULT: the rectified pre-activation normalised by its own column means and variances (by moments),
    scaled and shifted by the two launch rows. -/
theorem kernel_out : (W7 (F := Ideal) m ρ c (Proc.devRef .tc main_v56) : S100000x64.Idx → EReal)
    = affine (relu (preAct m c)) (mean (relu (preAct m c))) (varMoments (relu (preAct m c)))
        (fun q => m ((c : Thread nD τ).loc main_arg4) (ix1 q)) (fun q => m ((c : Thread nD τ).loc main_arg5) (ix1 q)) := by
  have e1 : (V6 (F := Ideal) m ρ c main_v47_0 : S100000x64.Idx → EReal) = relu (preAct m c) :=
    (v6_relu m ρ c).trans (k_relu m ρ c)
  have e2 : (fun q : Fin 64 => (V6 (F := Ideal) m ρ c main_v49 : S1x64.Idx → EReal) (ix2 0 q)) = mean (relu (preAct m c)) :=
    funext fun q => k_mean m ρ c q
  have e3 : (fun q : Fin 64 => (V6 (F := Ideal) m ρ c main_v53 : S1x64.Idx → EReal) (ix2 0 q)) = varMoments (relu (preAct m c)) :=
    funext fun q => k_var m ρ c q
  have e4 : (fun q : Fin 64 => (V6 (F := Ideal) m ρ c main_v54 : S1x64.Idx → EReal) (ix2 0 q))
      = fun q => m ((c : Thread nD τ).loc main_arg4) (ix1 q) := funext fun q => v6_gamma m ρ c q
  have e5 : (fun q : Fin 64 => (V6 (F := Ideal) m ρ c main_v55 : S1x64.Idx → EReal) (ix2 0 q))
      = fun q => m ((c : Thread nD τ).loc main_arg5) (ix1 q) := funext fun q => v6_beta m ρ c q
  refine ((W7_arr m ρ c 5).trans (norm_out (V6 m ρ) c)).trans ?_
  exact congr (congr (congr (congr (congrArg affine e1) e2) e3) e4) e5

end Cert.KernelIdeal.KV

end
-- ==== Proof.RefValue.lean ====
/-
  The reference's result, read index by index.

  After the graph stage the reference rectifies the pre-activation `H`, takes each column's mean (the column sum from
  zero, divided by the number of rows), each column's variance as the mean of the squared distances to that mean, and
  returns `(relu H - mean) * rsqrt (variance + eps) * weight + bias`, the per-column vectors spread over the rows. Read
  at an index this is the normalised matrix of the specification with the variance by deviations.
-/
import proofs.«143240_j15942918603370_1_alg».proof.Proof.RefReadP
import proofs.«143240_j15942918603370_1_alg».proof.Proof.Spec

set_option maxRecDepth 16384

noncomputable section

open scoped BigOperators

namespace Cert.Bridge

open Cert.ReferenceIdeal Cert.ReferenceIdeal.Gen Cert.ReferenceIdeal.ReadP
open Idealize.ShloMosaic Idealize.ShloMosaic.TcCoe Idealize.ShloMosaic.ValueIdx Cert.BatchNorm

variable (x0 : (⟨S100000x200, .f32⟩ : BufTy).Contents (Elt Ideal)) (x1 : (⟨S2x1600000, .i32⟩ : BufTy).Contents (Elt Ideal))
  (x2 : (⟨S200x64, .f32⟩ : BufTy).Contents (Elt Ideal)) (x3 x4 x5 : (⟨S64, .f32⟩ : BufTy).Contents (Elt Ideal))

/-! ## Indices: where each layout operation reads its operand -/

theorem col_of_row (q : Fin 64) (k : Fin 100000) : idx_main_v48 (ix1 q) k = ix2 k q :=
  funext fun a => by match a with | ⟨0, _⟩ => rfl | ⟨1, _⟩ => rfl
theorem col_of_row' (q : Fin 64) (k : Fin 100000) : idx_main_v55 (ix1 q) k = ix2 k q :=
  funext fun a => by match a with | ⟨0, _⟩ => rfl | ⟨1, _⟩ => rfl
theorem unit_row (r : Fin 100000) (q : Fin 64) : idx_main_v51 (idx_main_v52 (ix2 r q)) = ix1 q :=
  funext fun a => by match a with | ⟨0, _⟩ => rfl
theorem unit_row' (r : Fin 100000) (q : Fin 64) : idx_main_v58 (idx_main_v59 (ix2 r q)) = ix1 q :=
  funext fun a => by match a with | ⟨0, _⟩ => rfl
theorem unit_row_s (r : Fin 100000) (q : Fin 64) : idx_main_v64 (idx_main_v65 (ix2 r q)) = ix1 q :=
  funext fun a => by match a with | ⟨0, _⟩ => rfl
theorem unit_row_g (r : Fin 100000) (q : Fin 64) : idx_main_v67 (idx_main_v68 (ix2 r q)) = ix1 q :=
  funext fun a => by match a with | ⟨0, _⟩ => rfl
theorem unit_row_b (r : Fin 100000) (q : Fin 64) : idx_main_v70 (idx_main_v71 (ix2 r q)) = ix1 q :=
  funext fun a => by match a with | ⟨0, _⟩ => rfl

/-! ## The stages -/

/-- The rectified pre-activation. -/
theorem ref_relu : val_main_v47 (F := Ideal) x0 x1 x2 x3 = relu (val_main_v46 (F := Ideal) x0 x1 x2 x3) := by
  funext i
  rw [val_main_v47_apply, val_main_call1_v0_apply, val_main_call1_cst_apply]
  generalize val_main_v46 (F := Ideal) x0 x1 x2 x3 = H
  simp only [relu, Ideal.maximumf_def, Ideal.ofBits_def, Ideal.ofBits_zero_f32]

/-- The column means. -/
theorem ref_mean (q : Fin 64) :
    val_main_v50 (F := Ideal) x0 x1 x2 x3 (ix1 q) = mean (relu (val_main_v46 (F := Ideal) x0 x1 x2 x3)) q := by
  rw [val_main_v50_apply, val_main_v48_apply, val_main_v49_apply, val_main_cst_10_apply, val_main_cst_9_apply, ref_relu]
  generalize relu (val_main_v46 (F := Ideal) x0 x1 x2 x3) = R
  simp only [Ideal.hostDivf_def, Ideal.ofBits_def, Ideal.ofBits_zero_f32, zero_add, mean, colSum, cnt, col_of_row]

/-- One squared distance to the mean. -/
theorem ref_dev (q : Fin 64) (k : Fin 100000) :
    val_main_v54 (F := Ideal) x0 x1 x2 x3 (idx_main_v55 (ix1 q) k)
      = (relu (val_main_v46 (F := Ideal) x0 x1 x2 x3) (ix2 k q) - mean (relu (val_main_v46 (F := Ideal) x0 x1 x2 x3)) q)
        * (relu (val_main_v46 (F := Ideal) x0 x1 x2 x3) (ix2 k q) - mean (relu (val_main_v46 (F := Ideal) x0 x1 x2 x3)) q) := by
  rw [col_of_row', val_main_v54_apply, val_main_v53_apply, val_main_v52_apply, val_main_v51_apply, unit_row, ref_mean, ref_relu]
  generalize relu (val_main_v46 (F := Ideal) x0 x1 x2 x3) = R
  rfl

/-- The column variances, by deviations. -/
theorem ref_var (q : Fin 64) :
    val_main_v57 (F := Ideal) x0 x1 x2 x3 (ix1 q) = varDev (relu (val_main_v46 (F := Ideal) x0 x1 x2 x3)) q := by
  rw [val_main_v57_apply, val_main_v55_apply, val_main_v56_apply, val_main_cst_12_apply, val_main_cst_11_apply,
    Finset.sum_congr rfl (fun k _ => ref_dev x0 x1 x2 x3 q k)]
  generalize relu (val_main_v46 (F := Ideal) x0 x1 x2 x3) = R
  simp only [Ideal.hostDivf_def, Ideal.ofBits_def, Ideal.ofBits_zero_f32, zero_add, varDev, cnt]

/-- THE REFERENCE'S RESULT is the normalised rectified pre-activation, centred by the column means, scaled by the
    variance by deviations, with the weight and bias vectors per column. -/
theorem ref_value :
    val_main_v72 (F := Ideal) x0 x1 x2 x3 x4 x5
      = affine (relu (val_main_v46 (F := Ideal) x0 x1 x2 x3)) (mean (relu (val_main_v46 (F := Ideal) x0 x1 x2 x3)))
          (varDev (relu (val_main_v46 (F := Ideal) x0 x1 x2 x3))) (fun q => x4 (ix1 q)) (fun q => x5 (ix1 q)) := by
  funext i
  obtain ⟨r, q, rfl⟩ : ∃ (r : Fin 100000) (q : Fin 64), i = ix2 r q := ⟨i 0, i 1, eq_ix2 i⟩
  rw [val_main_v72_apply, val_main_v69_apply, val_main_v66_apply, val_main_v60_apply, val_main_v59_apply, val_main_v58_apply,
    val_main_v65_apply, val_main_v64_apply, val_main_v63_apply, val_main_v62_apply, val_main_v61_apply, val_main_cst_13_apply,
    val_main_v68_apply, val_main_v67_apply, val_main_v71_apply, val_main_v70_apply,
    unit_row', unit_row_s, unit_row_g, unit_row_b, ref_mean, ref_var, ref_relu]
  generalize relu (val_main_v46 (F := Ideal) x0 x1 x2 x3) = R
  simp only [affine, Ideal.addf_def, Ideal.mulf_def, Ideal.subf_def, Ideal.hostUnary_rsqrt_def, Ideal.ofBits_def, eps]

end Cert.Bridge

end
-- ==== Proof.LibMeanAggregate.lean ====
/-
  Extended-real algebra for mean aggregation.

  On the extended reals ℝ ∪ {-∞, +∞} the ring laws (distributivity, associativity of sums of
  products, commuting a scaling past a sum) fail at the infinities. They all hold on the image of
  ℝ. This file records that image as a predicate, its closure under the operations a mean
  aggregation uses (sum, product, maximum, quotient by a nonzero real), and the two identities
  that let a row scaling  x ↦ x / d  move across a matrix product when every entry is real.
-/
import Idealize.ShloMosaic.PureOps.Ideal
import Mathlib.Tactic.FieldSimp
import Mathlib.Tactic.Ring

noncomputable section

namespace Cert.Lib.MeanAggregate

open Idealize.ShloMosaic
open scoped BigOperators

/-- An extended real is *real* when it is the image of a real number: neither +∞ nor -∞. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion ℝ → EReal commutes with a finite sum over any finite set of indices. -/
theorem finset_sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion ℝ → EReal commutes with a sum over a finite type. -/
theorem sum_coe {ι : Type} [Fintype ι] (f : ι → ℝ) :
    ∑ i, ((f i : ℝ) : EReal) = ((∑ i, f i : ℝ) : EReal) :=
  finset_sum_coe Finset.univ f

/-- A sum of reals over a finite set of indices is real. -/
theorem IsReal.finset_sum {ι : Type} (s : Finset ι) {f : ι → EReal} (h : ∀ i, IsReal (f i)) :
    IsReal (∑ i ∈ s, f i) := by
  choose g hg using h
  have hf : f = fun i => ((g i : ℝ) : EReal) := funext hg
  rw [hf, finset_sum_coe]
  exact ⟨_, rfl⟩

/-- A sum of reals over a finite type is real. -/
theorem IsReal.sum {ι : Type} [Fintype ι] {f : ι → EReal} (h : ∀ i, IsReal (f i)) :
    IsReal (∑ i, f i) :=
  IsReal.finset_sum Finset.univ h

/-- The maximum of two images of reals is the image of the maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum (in the order of the extended reals) of two reals is real. -/
theorem IsReal.max {x y : EReal} (hx : IsReal x) (hy : IsReal y) : IsReal (max x y) := by
  obtain ⟨a, rfl⟩ := hx
  obtain ⟨b, rfl⟩ := hy
  exact ⟨_, max_coe a b⟩

/-- The exact float maximum of two reals is real: at the extended reals it is the order's max. -/
theorem IsReal.maximumf {φ : FTy} {x y : Ideal φ} (hx : IsReal x) (hy : IsReal y) :
    IsReal (FloatOps.maximumf x y) :=
  IsReal.max hx hy

/-- The quotient of a real by a nonzero real is real: it is the product with the reciprocal. -/
theorem IsReal.div {x d : EReal} (hx : IsReal x) (hd : IsReal d) (h0 : d ≠ 0) :
    IsReal (Ideal.div x d) := by
  obtain ⟨a, rfl⟩ := hx
  obtain ⟨b, rfl⟩ := hd
  have hb : b ≠ 0 := by
    rintro rfl
    exact h0 rfl
  rw [Ideal.div_coe hb, ← EReal.coe_mul]
  exact ⟨_, rfl⟩

/-- The maximum of anything with a positive real is positive. -/
theorem max_coe_pos (s : EReal) {e : ℝ} (he : 0 < e) : 0 < max s (e : EReal) :=
  lt_max_of_lt_right (EReal.coe_pos.mpr he)

/-- A degree clamped from below: for a real s and a positive real e, max s e is real and nonzero
    (it is at least e, which is positive). -/
theorem deg_ne_zero {s : EReal} (hs : IsReal s) {e : ℝ} (he : 0 < e) :
    IsReal (max s (e : EReal)) ∧ max s (e : EReal) ≠ 0 :=
  ⟨hs.max (isReal_coe e), ne_of_gt (max_coe_pos s he)⟩

/-- The same with the arguments of the maximum exchanged: max e s is real and nonzero. -/
theorem deg_ne_zero' {s : EReal} (hs : IsReal s) {e : ℝ} (he : 0 < e) :
    IsReal (max (e : EReal) s) ∧ max (e : EReal) s ≠ 0 := by
  rw [max_comm]
  exact deg_ne_zero hs he

/-- The clamped degree through the exact float maximum: it is the order's max, so for a real s and
    a positive real e, maximumf s e is real and nonzero. -/
theorem deg_ne_zero_maximumf {φ : FTy} {s : Ideal φ} (hs : IsReal s) {e : ℝ} (he : 0 < e) :
    IsReal (FloatOps.maximumf s ((e : EReal) : Ideal φ)) ∧
      FloatOps.maximumf s ((e : EReal) : Ideal φ) ≠ 0 :=
  deg_ne_zero hs he

/-- The same with the arguments of the float maximum exchanged. -/
theorem deg_ne_zero_maximumf' {φ : FTy} {s : Ideal φ} (hs : IsReal s) {e : ℝ} (he : 0 < e) :
    IsReal (FloatOps.maximumf ((e : EReal) : Ideal φ) s) ∧
      FloatOps.maximumf ((e : EReal) : Ideal φ) s ≠ 0 :=
  deg_ne_zero' hs he

/-- Multiplying by the reciprocal of a nonzero real is dividing by it: x * (1 / d) = x / d. -/
theorem mul_one_div_eq_div {x d : EReal} (_hx : IsReal x) (hd : IsReal d) (h0 : d ≠ 0) :
    x * Ideal.div 1 d = Ideal.div x d := by
  obtain ⟨b, rfl⟩ := hd
  have hb : b ≠ 0 := by
    rintro rfl
    exact h0 rfl
  rw [Ideal.div_coe hb, Ideal.div_coe hb, one_mul]

/-- A row scaling commutes with a right multiplication, one output entry at a time. For a row a of
    weights, a matrix h, a matrix W and a scalar d, all real, with d ≠ 0:
      ∑ₖ ((∑ⱼ aⱼ hⱼₖ) / d) Wₖ = (∑ⱼ aⱼ ∑ₖ hⱼₖ Wₖ) · (1 / d),
    that is ((a·h)/d)·W = (a·(h·W))·(1/d). Both sides are the image of the same real number:
    associativity and distributivity in ℝ. -/
theorem assoc_scale {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, Ideal.div (∑ j, a j * h j k) d * W k c
      = (∑ j, a j * ∑ k, h j k * W k c) * Ideal.div 1 d := by
  choose a' ha' using ha
  choose h' hh' using hh
  choose W' hW' using hW
  obtain ⟨b, rfl⟩ := hd
  have hb : b ≠ 0 := by
    rintro rfl
    exact h0 rfl
  obtain rfl : a = fun j => ((a' j : ℝ) : EReal) := funext ha'
  obtain rfl : h = fun j k => ((h' j k : ℝ) : EReal) := funext fun j => funext (hh' j)
  obtain rfl : W = fun k c => ((W' k c : ℝ) : EReal) := funext fun k => funext (hW' k)
  simp only [Ideal.div_coe hb, one_mul, ← EReal.coe_mul, sum_coe]
  refine congrArg _ ?_
  simp only [Finset.sum_mul, Finset.mul_sum]
  rw [Finset.sum_comm]
  refine Finset.sum_congr rfl fun j _ => Finset.sum_congr rfl fun k _ => ?_
  ring

/-- The scaling written as a product with the reciprocal, before the right multiplication:
      ∑ₖ ((∑ⱼ aⱼ hⱼₖ) · (1 / d)) Wₖ = ∑ₖ ((∑ⱼ aⱼ hⱼₖ) / d) Wₖ
    for real a, h, d with d ≠ 0 (W is arbitrary). -/
theorem scale_mul_eq_div {ι κ γ : Type} [Fintype ι] [Fintype κ] [Fintype γ]
    {a : ι → EReal} {h : ι → κ → EReal} (W : κ → γ → EReal) {d : EReal}
    (ha : ∀ j, IsReal (a j)) (hh : ∀ j k, IsReal (h j k))
    (hd : IsReal d) (h0 : d ≠ 0) (c : γ) :
    ∑ k, ((∑ j, a j * h j k) * Ideal.div 1 d) * W k c
      = ∑ k, Ideal.div (∑ j, a j * h j k) d * W k c :=
  Finset.sum_congr rfl fun k _ => by
    rw [mul_one_div_eq_div (IsReal.sum fun j => (ha j).mul (hh j k)) hd h0]

/-- Both forms at once: scaling by the reciprocal before the right multiplication equals scaling
    by it after,  ((a·h)·(1/d))·W = (a·(h·W))·(1/d), when every entry is real and d ≠ 0. -/
theorem assoc_scale_mul {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, ((∑ j, a j * h j k) * Ideal.div 1 d) * W k c
      = (∑ j, a j * ∑ k, h j k * W k c) * Ideal.div 1 d :=
  (scale_mul_eq_div W ha hh hd h0 c).trans (assoc_scale ha hh hW hd h0 c)

end Cert.Lib.MeanAggregate
-- ==== Proof.LibScatterAdd.lean ====
/-
  The host's accumulating float scatter, for row scatters, read at an index on the extended reals.

  A ROW SCATTER has scatter indices of shape [N, 1] holding one row number each; that number names the
  operand's axis 0, which is inserted; the update's remaining axes (none, or one axis of C columns) go to the
  operand's remaining axes. Update row j then lands on operand row (I j), the index read signed, column for
  column, and is dropped when that row is outside the operand. On the extended reals the scatter-add is the
  operand plus the exact sum of the updates landing on each element, so

    result (r)    = Z (r)    + the sum over the update rows j with I j = r of U (j)        (no columns)
    result (r, c) = Z (r, c) + the sum over the update rows j with I j = r of U (j, c)     (C columns)

  for any sizes R (operand rows), N (update rows), C (columns) and any index width. The lemmas are stated for
  the dimension numbers as a record built from any proof of their well-formedness (`dims1 wf`, `dims2 wf`); a
  program's own record of the same four lists is that record, so they apply to it by unification.
-/
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterRows

open Idealize.ShloMosaic Idealize.ShloMosaic.ValueIdx

theorem coord_val_congr {s : Shape} (j : s.Idx) {a b : Fin s.rank} (h : a = b) : (j a).val = (j b).val := by
  subst h; rfl

section rank1
variable {R N w : Nat}

/-- The 1-D scatter's dimension numbers, over any sizes. -/
abbrev dims1 (wf : ScatterDims.WF ⟨1, ![R]⟩ ⟨2, ![N, 1]⟩ ⟨1, ![N]⟩ [] [0] [0] 1) :
    ScatterDims ⟨1, ![R]⟩ ⟨2, ![N, 1]⟩ ⟨1, ![N]⟩ := ⟨[], [0], [0], 1, wf⟩

theorem start1 (wf) (a : Fin N) (I : IVec ⟨2, ![N, 1]⟩ w) :
    (dims1 (R := R) wf).start (ix1 a) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem window1 (wf) (j : (⟨1, ![N]⟩ : Shape).Idx) :
    (dims1 (R := R) wf).window j 0 = 0 := by
  unfold ScatterDims.window
  rw [dif_neg (by simp [Shape.kept])]

theorem resultIdx1 (wf) (a : Fin N) (I : IVec ⟨2, ![N, 1]⟩ w) (r : Fin R) :
    (dims1 (R := R) wf).resultIdx? (ix1 a) I = some (ix1 r) ↔ (I (ix2 a 0)).toInt = (r.val : ℤ) := by
  unfold ScatterDims.resultIdx?
  constructor
  · intro h
    split at h
    · rename_i hh
      have h0 := congrFun (Option.some.inj h) 0
      have h1 := congrArg Fin.val h0
      have h2 := hh 0
      rw [start1, window1] at h2
      change ((dims1 (R := R) wf).start (ix1 a) I 0 + ((dims1 (R := R) wf).window (ix1 a) 0 : ℤ)).toNat = r.val at h1
      rw [start1, window1] at h1
      omega
    · exact absurd h (by simp)
  · intro h
    have hh : ∀ b, 0 ≤ (dims1 (R := R) wf).start (ix1 a) I b + ((dims1 (R := R) wf).window (ix1 a) b : ℤ)
        ∧ (dims1 (R := R) wf).start (ix1 a) I b + ((dims1 (R := R) wf).window (ix1 a) b : ℤ)
          < ((⟨1, ![R]⟩ : Shape).size b : ℤ) := by
      intro b
      match b with
      | ⟨0, _⟩ =>
        have := r.isLt
        change _ ∧ (dims1 (R := R) wf).start (ix1 a) I 0 + ((dims1 (R := R) wf).window (ix1 a) 0 : ℤ) < (R : ℤ)
        change 0 ≤ (dims1 (R := R) wf).start (ix1 a) I 0 + ((dims1 (R := R) wf).window (ix1 a) 0 : ℤ) ∧ _
        rw [start1, window1, h]
        omega
    rw [dif_pos hh]
    congr 1
    funext b
    match b with
    | ⟨0, _⟩ =>
      apply Fin.ext
      change ((dims1 (R := R) wf).start (ix1 a) I 0 + ((dims1 (R := R) wf).window (ix1 a) 0 : ℤ)).toNat = r.val
      rw [start1, window1, h]
      omega

end rank1

section rank1sum
variable {R N w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterAdd1_apply (wf) (Z : (⟨1, ![R]⟩ : Shape).Idx → EReal) (I : IVec ⟨2, ![N, 1]⟩ w)
    (U : (⟨1, ![N]⟩ : Shape).Idx → EReal) (r : Fin R) :
    Ideal.hostScatterAdd (dims1 (R := R) wf) Z I U (ix1 r)
      = Z (ix1 r) + ∑ a : Fin N, if (I (ix2 a 0)).toInt = (r.val : ℤ) then U (ix1 a) else 0 := by
  unfold Ideal.hostScatterAdd
  rw [Finset.sum_filter, sum_idx1]
  congr 1
  apply Finset.sum_congr rfl
  intro a _
  exact if_congr (resultIdx1 wf a I r) rfl rfl

end rank1sum

section rank2
variable {R N C w : Nat}

/-- The row scatter's dimension numbers, over any sizes: the update's rows go to the operand's rows
    the indices name, its columns to the same columns. -/
abbrev dims2 (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ := ⟨[1], [0], [0], 1, wf⟩

theorem start2_0 (wf) (a : Fin N) (c : Fin C) (I : IVec ⟨2, ![N, 1]⟩ w) :
    (dims2 (R := R) wf).start (ix2 a c) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix2 a c) rfl
  | ⟨1, _⟩ =>
    apply Fin.ext
    simp [ScatterDims.siIdx]

theorem start2_1 (wf) (j : (⟨2, ![N, C]⟩ : Shape).Idx) (I : IVec ⟨2, ![N, 1]⟩ w) :
    (dims2 (R := R) wf).start j I 1 = 0 := by
  unfold ScatterDims.start
  rw [dif_neg (by simp)]

theorem window2_0 (wf) (j : (⟨2, ![N, C]⟩ : Shape).Idx) :
    (dims2 (R := R) wf).window j 0 = 0 := by
  unfold ScatterDims.window
  rw [dif_neg (by simp [Shape.kept])]

theorem window2_1 (wf) (a : Fin N) (c : Fin C) :
    (dims2 (R := R) wf).window (ix2 a c) 1 = c.val := by
  unfold ScatterDims.window
  rw [dif_pos (by simp [Shape.kept])]
  exact coord_val_congr (ix2 a c) rfl

end rank2

section rank2sum
variable {R N C w : Nat}

theorem resultIdx2 (wf) (a : Fin N) (c : Fin C) (I : IVec ⟨2, ![N, 1]⟩ w) (r : Fin R) (c' : Fin C) :
    (dims2 (R := R) wf).resultIdx? (ix2 a c) I = some (ix2 r c')
      ↔ (I (ix2 a 0)).toInt = (r.val : ℤ) ∧ c = c' := by
  unfold ScatterDims.resultIdx?
  constructor
  · intro h
    split at h
    · rename_i hh
      have e := Option.some.inj h
      have h0 := congrArg Fin.val (congrFun e 0)
      have h1 := congrArg Fin.val (congrFun e 1)
      have g0 := hh 0
      rw [start2_0, window2_0] at g0
      change ((dims2 (R := R) wf).start (ix2 a c) I 0 + ((dims2 (R := R) wf).window (ix2 a c) 0 : ℤ)).toNat = r.val at h0
      change ((dims2 (R := R) wf).start (ix2 a c) I 1 + ((dims2 (R := R) wf).window (ix2 a c) 1 : ℤ)).toNat = c'.val at h1
      rw [start2_0, window2_0] at h0
      rw [start2_1, window2_1] at h1
      refine ⟨by omega, Fin.ext (by omega)⟩
    · exact absurd h (by simp)
  · rintro ⟨h, rfl⟩
    have hh : ∀ b, 0 ≤ (dims2 (R := R) wf).start (ix2 a c) I b + ((dims2 (R := R) wf).window (ix2 a c) b : ℤ)
        ∧ (dims2 (R := R) wf).start (ix2 a c) I b + ((dims2 (R := R) wf).window (ix2 a c) b : ℤ)
          < ((⟨2, ![R, C]⟩ : Shape).size b : ℤ) := by
      intro b
      match b with
      | ⟨0, _⟩ =>
        have := r.isLt
        change _ ∧ (dims2 (R := R) wf).start (ix2 a c) I 0 + ((dims2 (R := R) wf).window (ix2 a c) 0 : ℤ) < (R : ℤ)
        change 0 ≤ (dims2 (R := R) wf).start (ix2 a c) I 0 + ((dims2 (R := R) wf).window (ix2 a c) 0 : ℤ) ∧ _
        rw [start2_0, window2_0, h]
        omega
      | ⟨1, _⟩ =>
        have := c.isLt
        change _ ∧ (dims2 (R := R) wf).start (ix2 a c) I 1 + ((dims2 (R := R) wf).window (ix2 a c) 1 : ℤ) < (C : ℤ)
        change 0 ≤ (dims2 (R := R) wf).start (ix2 a c) I 1 + ((dims2 (R := R) wf).window (ix2 a c) 1 : ℤ) ∧ _
        rw [start2_1, window2_1]
        omega
    rw [dif_pos hh]
    congr 1
    funext b
    match b with
    | ⟨0, _⟩ =>
      apply Fin.ext
      change ((dims2 (R := R) wf).start (ix2 a c) I 0 + ((dims2 (R := R) wf).window (ix2 a c) 0 : ℤ)).toNat = r.val
      rw [start2_0, window2_0, h]
      omega
    | ⟨1, _⟩ =>
      apply Fin.ext
      change ((dims2 (R := R) wf).start (ix2 a c) I 1 + ((dims2 (R := R) wf).window (ix2 a c) 1 : ℤ)).toNat = c.val
      rw [start2_1, window2_1]
      omega

/-- Of a row of terms, the ones at one column under a condition that does not depend on the column. -/
theorem sum_and_eq (p : Prop) [Decidable p] (c : Fin C) (f : Fin C → EReal) :
    ∑ c' : Fin C, (if p ∧ c' = c then f c' else 0) = if p then f c else 0 := by
  by_cases hp : p
  · simp [hp]
  · simp [hp]

theorem scatterAdd2_apply (wf) (Z : (⟨2, ![R, C]⟩ : Shape).Idx → EReal) (I : IVec ⟨2, ![N, 1]⟩ w)
    (U : (⟨2, ![N, C]⟩ : Shape).Idx → EReal) (r : Fin R) (c : Fin C) :
    Ideal.hostScatterAdd (dims2 (R := R) wf) Z I U (ix2 r c)
      = Z (ix2 r c) + ∑ a : Fin N, if (I (ix2 a 0)).toInt = (r.val : ℤ) then U (ix2 a c) else 0 := by
  unfold Ideal.hostScatterAdd
  rw [Finset.sum_filter, sum_idx2]
  congr 1
  apply Finset.sum_congr rfl
  intro a _
  rw [← sum_and_eq ((I (ix2 a 0)).toInt = (r.val : ℤ)) c (fun c' => U (ix2 a c'))]
  apply Finset.sum_congr rfl
  intro c' _
  exact if_congr (resultIdx2 wf a c' I r c) rfl rfl

end rank2sum

end Cert.ScatterRows

end
-- ==== Proof.LibGatherRows.lean ====
/-
  The host's gather, for row gathers, read at an index.

  A ROW GATHER has start indices of shape [E, 1] holding one row number each; that number names the operand's
  axis 0, which is collapsed; the operand's remaining axes (none, or one axis of C columns) are taken whole. Result
  row a is then the operand's row (rowOf G a): the start index G (a, 0) read signed and clamped into [0, N - 1], as
  the gather clamps every start index so that the slice fits. So

    result (a)    = operand (rowOf G a)         (no columns)
    result (a, c) = operand (rowOf G a, c)      (C columns)

  for any sizes N (operand rows, positive), E (result rows), C (columns) and any index width. The lemmas are stated
  for the dimension numbers as a record built from any proof of their well-formedness (`dims1 wf`, `dims2 wf`); a
  program's own record of the same lists is that record, so they apply to it by unification.
-/
import Idealize.ShloMosaic.Lib.ValueIdx

noncomputable section

namespace Cert.GatherRows

open Idealize.ShloMosaic Idealize.ShloMosaic.ValueIdx

variable {α : Type} {N E C w : Nat}

/-- The operand row a start index names: read signed, clamped into [0, N - 1]. -/
def rowOf (hN : 0 < N) (G : IVec ⟨2, ![E, 1]⟩ w) (a : Fin E) : Fin N :=
  ⟨min (G (ix2 a 0)).toInt.toNat (N - 1), by omega⟩

/-- A start index that reads as a row number in range names that row. -/
theorem rowOf_eq (hN : 0 < N) (G : IVec ⟨2, ![E, 1]⟩ w) (a : Fin E) (r : Fin N) (h : (G (ix2 a 0)).toInt = (r.val : ℤ)) :
    rowOf hN G a = r := by
  apply Fin.ext
  have := r.isLt
  show min (G (ix2 a 0)).toInt.toNat (N - 1) = r.val
  rw [h]
  simp only [Int.toNat_natCast]
  omega

/-- The 1-D gather's dimension numbers, over any sizes. -/
abbrev dims1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row gather's dimension numbers, over any sizes. -/
abbrev dims2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-- THE 1-D GATHER READ AT a: the operand at the row the start index names. -/
theorem gather1_apply (hN : 0 < N) (wf) (x : (⟨1, ![N]⟩ : Shape).Idx → α) (G : IVec ⟨2, ![E, 1]⟩ w) (a : Fin E) :
    Host.gather (dims1 (N := N) (E := E) wf) x G (ix1 a) = x (ix1 (rowOf hN G a)) := by
  unfold Host.gather
  congr 1
  funext b
  obtain rfl : b = 0 := Subsingleton.elim _ _
  refine Fin.ext ?_
  show (dims1 (N := N) (E := E) wf).start (ix1 a) G 0 + (dims1 (N := N) (E := E) wf).batchCoord (ix1 a) 0
      + (dims1 (N := N) (E := E) wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 (N := N) (E := E) wf).startIndexMap from List.mem_singleton.mpr rfl)]
  have hsi : (dims1 (N := N) (E := E) wf).siIdx (ix1 a) ⟨List.idxOf (0 : Fin 1) (dims1 (N := N) (E := E) wf).startIndexMap,
      List.idxOf_lt_length_iff.2 (List.mem_singleton.mpr rfl)⟩ = ix2 a 0 := by
    funext c; refine Fin.ext ?_
    match c with
    | ⟨0, _⟩ => rfl
    | ⟨1, _⟩ => rfl
  rw [hsi]
  rfl

/-- THE ROW GATHER READ AT (a, c): the operand at the row the start index names, same column. -/
theorem gather2_apply (hN : 0 < N) (wf) (x : (⟨2, ![N, C]⟩ : Shape).Idx → α) (G : IVec ⟨2, ![E, 1]⟩ w) (a : Fin E) (c : Fin C) :
    Host.gather (dims2 (N := N) (E := E) (C := C) wf) x G (ix2 a c) = x (ix2 (rowOf hN G a) c) := by
  unfold Host.gather
  congr 1
  funext b
  refine Fin.ext ?_
  match b with
  | ⟨0, _⟩ =>
    -- the collapsed row axis: the clamped start index, no batching coordinate, no offset
    show (dims2 (N := N) (E := E) (C := C) wf).start (ix2 a c) G 0
        + (dims2 (N := N) (E := E) (C := C) wf).batchCoord (ix2 a c) 0
        + (dims2 (N := N) (E := E) (C := C) wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 (N := N) (E := E) (C := C) wf).startIndexMap from List.mem_singleton.mpr rfl)]
    have hsi : (dims2 (N := N) (E := E) (C := C) wf).siIdx (ix2 a c)
        ⟨List.idxOf (0 : Fin 2) (dims2 (N := N) (E := E) (C := C) wf).startIndexMap,
          List.idxOf_lt_length_iff.2 (List.mem_singleton.mpr rfl)⟩ = ix2 a 0 := by
      funext e; refine Fin.ext ?_
      match e with
      | ⟨0, _⟩ => rfl
      | ⟨1, _⟩ => rfl
    rw [hsi]
    rfl
  | ⟨1, _⟩ =>
    -- the column axis, taken whole: start 0, no batching coordinate, the result's column as offset
    show (dims2 (N := N) (E := E) (C := C) wf).start (ix2 a c) G 1
        + (dims2 (N := N) (E := E) (C := C) wf).batchCoord (ix2 a c) 1
        + (dims2 (N := N) (E := E) (C := C) wf).offCoord (ix2 a c) 1 = c.val
    rw [GatherDims.batchCoord_eq_zero _ _ _ List.not_mem_nil]
    have hst : (dims2 (N := N) (E := E) (C := C) wf).start (ix2 a c) G 1 = 0 := by
      unfold GatherDims.start
      rw [dif_neg (by simp)]
    have hk : (1 : Fin 2) ∈ (dims2 (N := N) (E := E) (C := C) wf).sKept :=
      (GatherDims.mem_sKept _ _).mpr ⟨by simp, List.not_mem_nil⟩
    have hoff : (dims2 (N := N) (E := E) (C := C) wf).offCoord (ix2 a c) 1 = c.val := by
      unfold GatherDims.offCoord
      rw [dif_pos hk]
      rfl
    rw [hst, hoff]
    simp

end Cert.GatherRows

end
-- ==== Proof.Finite.lean ====
/-
  Finiteness of the rectified pre-activation.

  On the extended reals the two ways of writing a variance agree only on columns of real numbers, so the bridge needs
  that every entry of relu (graph (x · W) e b) is a real number: neither +inf nor -inf. That holds whenever the float
  operands x, W and b hold real numbers, WHATEVER integers the edge list e holds, because every step of the graph
  stage keeps entries real and none of them lets an index decide more than WHICH real entries are read or added:
    * a gathered entry is one of the operand's entries (an index out of range is clamped to a row, not to a new value);
    * a scatter-added entry is the operand's entry plus a finite sum whose terms are update entries or zero (an update
      whose index is out of range is dropped);
    * a degree is zero plus a finite sum of ones; where it is positive its inverse square root is the reciprocal of a
      positive real's square root, and elsewhere the constant zero is taken;
    * sums, products and maxima of reals are real, and an entry of x · W is a finite sum of products.
  The second part reads the printed precondition: it says of each float argument that every entry's absolute value is
  below +inf, which is the same as being a real number.
-/
import proofs.«143240_j15942918603370_1_alg».proof.Defs
import proofs.«143240_j15942918603370_1_alg».proof.Proof.Graph
import proofs.«143240_j15942918603370_1_alg».proof.Proof.Spec
import proofs.«143240_j15942918603370_1_alg».proof.Proof.Gen.Pre_finite_inputs
import proofs.«143240_j15942918603370_1_alg».proof.Proof.LibMeanAggregate
import proofs.«143240_j15942918603370_1_alg».proof.Proof.LibScatterAdd
import proofs.«143240_j15942918603370_1_alg».proof.Proof.LibGatherRows
import Idealize.ShloMosaic.Lib.ReduceAll

noncomputable section

open scoped BigOperators

namespace Cert.Bridge

open Cert.ReferenceIdeal Cert.ReferenceIdeal.Gen Cert.ReferenceIdeal.ReadP
open Idealize.ShloMosaic Idealize.ShloMosaic.TcCoe Idealize.ShloMosaic.ValueIdx
open Cert.Lib.MeanAggregate

namespace Finite

/-! ## Gathers and scatter-adds keep entries real

A gathered entry is one of the operand's entries, whichever row its index names. A scatter-added entry is the
operand's entry plus a finite sum whose terms are update entries or zero. Neither needs to know which rows the
indices name. -/

/-- A gather of single entries out of a vector of reals holds reals. -/
theorem gather1_real (x : (⟨S100000, .f32⟩ : BufTy).Contents (Elt Ideal)) (G : (⟨S1700000x1, .i32⟩ : BufTy).Contents (Elt Ideal))
    (hx : ∀ i, IsReal (x i)) (i : S1700000.Idx) :
    IsReal (Host.gather gather_S100000_S1700000x1_S1700000_n_0_n_n_0_1_1 x G i) := by
  obtain ⟨a, rfl⟩ : ∃ a : Fin 1700000, i = ix1 a := ⟨i 0, eq_ix1 i⟩
  have h := Cert.GatherRows.gather1_apply (N := 100000) (E := 1700000) (w := 32) (by decide)
    Facts₀.gather_S100000_S1700000x1_S1700000_n_0_n_n_0_1_1_wf x G a
  rw [show Host.gather gather_S100000_S1700000x1_S1700000_n_0_n_n_0_1_1 x G (ix1 a) = _ from h]
  exact hx _

/-- A gather of rows out of a matrix of reals holds reals. -/
theorem gather2_real (x : (⟨S100000x64, .f32⟩ : BufTy).Contents (Elt Ideal)) (G : (⟨S1700000x1, .i32⟩ : BufTy).Contents (Elt Ideal))
    (hx : ∀ i, IsReal (x i)) (i : S1700000x64.Idx) :
    IsReal (Host.gather gather_S100000x64_S1700000x1_S1700000x64_1_0_n_n_0_1_164 x G i) := by
  obtain ⟨a, c, rfl⟩ : ∃ (a : Fin 1700000) (c : Fin 64), i = ix2 a c := ⟨i 0, i 1, eq_ix2 i⟩
  have h := Cert.GatherRows.gather2_apply (N := 100000) (E := 1700000) (C := 64) (w := 32) (by decide)
    Facts₀.gather_S100000x64_S1700000x1_S1700000x64_1_0_n_n_0_1_164_wf x G a c
  rw [show Host.gather gather_S100000x64_S1700000x1_S1700000x64_1_0_n_n_0_1_164 x G (ix2 a c) = _ from h]
  exact hx _

/-- A scatter-add of real entries into a vector of reals holds reals. -/
theorem scatter1_real (Z : (⟨S100000, .f32⟩ : BufTy).Contents (Elt Ideal)) (I : (⟨S1700000x1, .i32⟩ : BufTy).Contents (Elt Ideal))
    (V : (⟨S1700000, .f32⟩ : BufTy).Contents (Elt Ideal)) (hZ : ∀ i, IsReal (Z i)) (hV : ∀ i, IsReal (V i)) (i : S100000.Idx) :
    IsReal (Host.scatterAdd (F := Ideal) (φ := .f32) scatter_S100000_S1700000x1_S1700000_n_0_0_1 Z I V i) := by
  obtain ⟨r, rfl⟩ : ∃ r : Fin 100000, i = ix1 r := ⟨i 0, eq_ix1 i⟩
  have h := Cert.ScatterRows.scatterAdd1_apply (R := 100000) (N := 1700000) (w := 32)
    Facts₀.scatter_S100000_S1700000x1_S1700000_n_0_0_1_wf Z I V r
  rw [show Host.scatterAdd (F := Ideal) (φ := .f32) scatter_S100000_S1700000x1_S1700000_n_0_0_1 Z I V (ix1 r) = _ from h]
  refine (hZ _).add (IsReal.sum fun a => ?_)
  split
  · exact hV _
  · exact isReal_zero

/-- A scatter-add of real rows into a matrix of reals holds reals. -/
theorem scatter2_real (Z : (⟨S100000x64, .f32⟩ : BufTy).Contents (Elt Ideal)) (I : (⟨S1700000x1, .i32⟩ : BufTy).Contents (Elt Ideal))
    (V : (⟨S1700000x64, .f32⟩ : BufTy).Contents (Elt Ideal)) (hZ : ∀ i, IsReal (Z i)) (hV : ∀ i, IsReal (V i)) (i : S100000x64.Idx) :
    IsReal (Host.scatterAdd (F := Ideal) (φ := .f32) scatter_S100000x64_S1700000x1_S1700000x64_1_0_0_1 Z I V i) := by
  obtain ⟨r, c, rfl⟩ : ∃ (r : Fin 100000) (c : Fin 64), i = ix2 r c := ⟨i 0, i 1, eq_ix2 i⟩
  have h := Cert.ScatterRows.scatterAdd2_apply (R := 100000) (N := 1700000) (C := 64) (w := 32)
    Facts₀.scatter_S100000x64_S1700000x1_S1700000x64_1_0_0_1_wf Z I V r c
  rw [show Host.scatterAdd (F := Ideal) (φ := .f32) scatter_S100000x64_S1700000x1_S1700000x64_1_0_0_1 Z I V (ix2 r c) = _ from h]
  refine (hZ _).add (IsReal.sum fun a => ?_)
  split
  · exact hV _
  · exact isReal_zero

/-! ## The constants and the inverse square root of a degree -/

/-- The f32 word of zero is the real number zero. -/
theorem zero_word_real : IsReal (Ideal.ofBits .f32 0x00000000#32) := by
  rw [Ideal.ofBits_zero_f32]; exact isReal_zero

/-- The f32 word of one is a real number. -/
theorem one_word_real : IsReal (Ideal.ofBits .f32 0x3F800000#32) :=
  ⟨1, by simp [Ideal.ofBits, Ideal.ieee, -EReal.coe_mul]; norm_num⟩

/-- Where a real degree is positive its inverse square root is real; elsewhere zero is taken. -/
theorem select_rsqrt_real {d : EReal} (hd : IsReal d) :
    IsReal (Scalar.select (Ideal.cmp .ogt d 0) (Ideal.rsqrt d) 0) := by
  obtain ⟨r, rfl⟩ := hd
  unfold Scalar.select
  split
  · rename_i h
    have hr : 0 < r := by
      by_contra hn
      have : ¬ ((0 : EReal) < (r : EReal)) := fun h0 => hn (EReal.coe_pos.mp h0)
      simp [Ideal.cmp, this] at h
    rw [Ideal.rsqrt_coe, if_neg (not_lt.mpr hr.le), if_neg hr.ne']
    exact ⟨_, rfl⟩
  · exact isReal_zero

/-! ## The edge weights depend on the edge list alone

Whatever integers the edge list holds: a node's degree is zero plus a finite sum of ones, a real; where it is
positive its inverse square root is real and elsewhere zero is taken; an edge's weight is the product of two such
entries, read at whichever nodes its endpoints name. -/

/-- A node's degree is real. -/
theorem deg_real (x1 : (⟨S2x1600000, .i32⟩ : BufTy).Contents (Elt Ideal)) (i : S100000.Idx) :
    IsReal (val_main_v11 (F := Ideal) x1 i) := by
  unfold val_main_v11
  refine scatter1_real _ _ _ (fun j => ?_) (fun j => ?_) i
  · rw [val_main_v9_apply, val_main_cst_0_apply]; exact zero_word_real
  · rw [val_main_v8_apply, val_main_cst_apply]; exact one_word_real

/-- A node's inverse square root of the degree (zero where the degree is not positive) is real. -/
theorem dinv_real (x1 : (⟨S2x1600000, .i32⟩ : BufTy).Contents (Elt Ideal)) (i : S100000.Idx) :
    IsReal (val_main_v15 (F := Ideal) x1 i) := by
  have hd := deg_real x1 i
  rw [val_main_v15_apply, val_main_v13_apply, val_main_v14_apply, val_main_v12_apply, val_main_cst_1_apply,
    val_main_call0_v1_apply, val_main_call0_v0_apply, val_main_cst_2_apply]
  generalize val_main_v11 (F := Ideal) x1 i = d at hd ⊢
  rw [Ideal.hostUnary_rsqrt_def, Ideal.ofBits_def, Ideal.ofBits_zero_f32]
  exact select_rsqrt_real hd

/-- An edge's weight, the product of its endpoints' entries, is real. -/
theorem norm_real (x1 : (⟨S2x1600000, .i32⟩ : BufTy).Contents (Elt Ideal)) (i : S1700000.Idx) :
    IsReal (val_main_v30 (F := Ideal) x1 i) := by
  rw [val_main_v30_apply, Ideal.mulf_def]
  unfold val_main_v22 val_main_v29
  exact (gather1_real _ _ (dinv_real x1) _).mul (gather1_real _ _ (dinv_real x1) _)

/-- The edge weights spread over the 64 columns are real. -/
theorem weight_real (x1 : (⟨S2x1600000, .i32⟩ : BufTy).Contents (Elt Ideal)) (i : S1700000x64.Idx) :
    IsReal (val_main_v39 (F := Ideal) x1 i) := by
  rw [val_main_v39_apply, val_main_v38_apply]
  exact norm_real x1 _

/-! ## The aggregate, the bias and the rectifier -/

/-- The rows added up at their destinations, from zero: real when the gathered matrix is. -/
theorem agg_real (xw : (⟨S100000x64, .f32⟩ : BufTy).Contents (Elt Ideal)) (x1 : (⟨S2x1600000, .i32⟩ : BufTy).Contents (Elt Ideal))
    (hxw : ∀ i, IsReal (xw i)) (i : S100000x64.Idx) :
    IsReal (Host.scatterAdd (F := Ideal) (φ := .f32) scatter_S100000x64_S1700000x1_S1700000x64_1_0_0_1 (val_main_v41 (F := Ideal))
      (val_main_v42 (F := Ideal) x1)
      (mulf (Host.gather gather_S100000x64_S1700000x1_S1700000x64_1_0_n_n_0_1_164 xw (val_main_v36 (F := Ideal) x1))
        (val_main_v39 (F := Ideal) x1)) i) := by
  refine scatter2_real _ _ _ (fun j => ?_) (fun j => ?_) i
  · rw [val_main_v41_apply, val_main_cst_8_apply]; exact zero_word_real
  · show IsReal (FloatOps.mulf (F := Ideal) (φ := .f32)
      (Host.gather gather_S100000x64_S1700000x1_S1700000x64_1_0_n_n_0_1_164 xw (val_main_v36 (F := Ideal) x1) j)
      (val_main_v39 (F := Ideal) x1 j))
    rw [Ideal.mulf_def]
    exact (gather2_real _ _ hxw _).mul (weight_real x1 _)

/-- The bias spread over the rows is real when the bias is. -/
theorem bias_real (x3 : (⟨S64, .f32⟩ : BufTy).Contents (Elt Ideal)) (h3 : ∀ i, IsReal (x3 i)) (i : S100000x64.Idx) :
    IsReal (val_main_v45 (F := Ideal) x3 i) := by
  rw [val_main_v45_apply, val_main_v44_apply]
  exact h3 _

/-- A matrix product of real matrices is real: each entry is a finite sum of products. -/
theorem xw_real (x0 : (⟨S100000x200, .f32⟩ : BufTy).Contents (Elt Ideal)) (x2 : (⟨S200x64, .f32⟩ : BufTy).Contents (Elt Ideal))
    (h0 : ∀ i, IsReal (x0 i)) (h2 : ∀ i, IsReal (x2 i)) (i : S100000x64.Idx) :
    IsReal (val_main_v0 (F := Ideal) x0 x2 i) := by
  rw [val_main_v0_apply]
  exact IsReal.sum fun k => (h0 _).mul (h2 _)

/-- A sum of two arrays is real at an index where both are. -/
theorem addf_real_at {s : Shape} (A B : FVec Ideal s .f32) (i : s.Idx) (hA : IsReal (A i)) (hB : IsReal (B i)) :
    IsReal (addf A B i) :=
  hA.add hB

/-- The rectifier keeps a real entry real: the maximum of a real and zero. -/
theorem relu_real_at (H : Cert.BatchNorm.Mat) (i : (⟨2, ![100000, 64]⟩ : Shape).Idx) (h : IsReal (H i)) :
    ∃ r : ℝ, Cert.BatchNorm.relu H i = (r : EReal) :=
  h.max isReal_zero

/-- The graph stage of a real matrix with a real bias is real, whatever the edge list holds. -/
theorem graph_real (xw : (⟨S100000x64, .f32⟩ : BufTy).Contents (Elt Ideal)) (x1 : (⟨S2x1600000, .i32⟩ : BufTy).Contents (Elt Ideal))
    (x3 : (⟨S64, .f32⟩ : BufTy).Contents (Elt Ideal)) (hxw : ∀ i, IsReal (xw i)) (h3 : ∀ i, IsReal (x3 i)) (i : S100000x64.Idx) :
    IsReal (graph xw x1 x3 i) := by
  unfold graph
  exact addf_real_at _ _ i (agg_real xw x1 hxw i) (bias_real x3 h3 i)

end Finite

open Finite

/-- The rectified pre-activation is real wherever the float operands are. -/
theorem relu_graph_real (x0 : (⟨S100000x200, .f32⟩ : BufTy).Contents (Elt Ideal)) (x1 : (⟨S2x1600000, .i32⟩ : BufTy).Contents (Elt Ideal))
    (x2 : (⟨S200x64, .f32⟩ : BufTy).Contents (Elt Ideal)) (x3 : (⟨S64, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) :
    ∀ i, ∃ r : ℝ, Cert.BatchNorm.relu (graph (val_main_v0 (F := Ideal) x0 x2) x1 x3) i = (r : EReal) :=
  fun i => relu_real_at _ i (graph_real _ x1 x3 (xw_real x0 x2 h0 h2) h3 i)

namespace Finite

/-! ## The precondition: every float input entry is a real number

The printed predicate is a conjunction of five `all`s, one per float argument, each saying that the absolute value
of every entry is below the f32 word of +inf. On the extended reals that word is +inf itself, and |x| < +inf excludes
exactly the two infinities. -/

instance subsingleton_scalar_idx : Subsingleton Cert.Pre_finite_inputs.S_.Idx := ⟨fun a b => funext fun d => d.elim0⟩

/-- An extended real whose absolute value is below the word of +inf is a real number. -/
theorem real_of_abs_lt_inf (x : EReal)
    (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

end Finite

/-- The precondition gives real entries: stated for the printed predicate itself. -/
theorem inputs_real [Cert.Pre_finite_inputs.Facts] (a0 : (⟨S100000x200, .f32⟩ : BufTy).Contents (Elt Ideal))
    (a1 : (⟨S2x1600000, .i32⟩ : BufTy).Contents (Elt Ideal)) (a2 : (⟨S200x64, .f32⟩ : BufTy).Contents (Elt Ideal))
    (a3 a4 a5 : (⟨S64, .f32⟩ : BufTy).Contents (Elt Ideal))
    (h : Cert.Pre_finite_inputs.fn (F := Ideal) a0 a1 a2 a3 a4 a5 = (fun _ => 1#1)) :
    (∀ i, ∃ r : ℝ, a0 i = (r : EReal)) ∧ (∀ i, ∃ r : ℝ, a2 i = (r : EReal)) ∧ (∀ i, ∃ r : ℝ, a3 i = (r : EReal)) := by
  have e := congrFun h ValueIdx.ix0
  dsimp only [Cert.Pre_finite_inputs.fn, Cert.Pre_finite_inputs.fn_part1] at e
  simp only [andi, IntOp.andi_eq_one] at e
  obtain ⟨⟨⟨⟨e0, e2⟩, e3⟩, -⟩, -⟩ := e
  refine ⟨fun i => ?_, fun i => ?_, fun i => ?_⟩
  · exact real_of_abs_lt_inf _ (Host.reduce_andi_all _ _ _ _ _ e0 i)
  · exact real_of_abs_lt_inf _ (Host.reduce_andi_all _ _ _ _ _ e2 i)
  · exact real_of_abs_lt_inf _ (Host.reduce_andi_all _ _ _ _ _ e3 i)

end Cert.Bridge

end
-- ==== Proof.lean ====
/-
  A three-stage graph convolution layer with batch normalisation, against its jnp reference, on the extended reals.

  The kernel computes `xw = x · W` in row blocks, sends it through the graph stage on the host (degree-normalised
  message passing over the edge list with self loops, plus the bias), rectifies the result in row blocks while
  accumulating each column's sum and sum of squares, forms the mean and the variance `E[h²] − mean²` on the host, and
  normalises in row blocks: `(h − mean) · rsqrt (var + ε) · weight + bias`. The reference computes the same product
  with one `dot_general`, the same graph stage, `relu`, the mean, the variance as `E[(h − mean)²]`, and the same
  normalisation.

  At the ideal instance the two matrix products are the same sums, the graph stage is one function applied to equal
  arguments, and block-wise column sums are the column sums (addition of extended reals is commutative and
  associative). The two variances are different expressions, equal on real data only: under the precondition every
  float input is finite, so the product is real, the degrees are finite counts whose inverse roots are taken only where
  they are positive, every gathered entry is an entry of a real array and every aggregated entry a finite sum of reals;
  hence the rectified pre-activation is real and the expansion of the square applies, the divisor being exactly the
  number of rows.
-/
import proofs.«143240_j15942918603370_1_alg».proof.Defs
import proofs.«143240_j15942918603370_1_alg».proof.Proof.Gen.Kernel
import proofs.«143240_j15942918603370_1_alg».proof.Proof.Gen.Kernel.Frame
import proofs.«143240_j15942918603370_1_alg».proof.Proof.Gen.KernelIdeal
import proofs.«143240_j15942918603370_1_alg».proof.Proof.Gen.KernelIdeal.Frame
import proofs.«143240_j15942918603370_1_alg».proof.Proof.Gen.ReferenceIdeal
import proofs.«143240_j15942918603370_1_alg».proof.Proof.Gen.Pre_finite_inputs
import proofs.«143240_j15942918603370_1_alg».proof.Proof.KernelRun
import proofs.«143240_j15942918603370_1_alg».proof.Proof.KValue
import proofs.«143240_j15942918603370_1_alg».proof.Proof.RefValue
import proofs.«143240_j15942918603370_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.BatchNorm

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- On real data the variance by deviations is the variance by moments, column by column. -/
theorem var_agree (R : Mat) (hR : ∀ i, ∃ x : ℝ, R i = (x : EReal)) : varDev R = varMoments R :=
  funext fun q => (var_eq R q fun r => hR (ix2 r q)).symm

/-- Both programs end at the normalised rectified pre-activation of arguments that agree; the kernel's variance by
    moments is the reference's by deviations because the rectified pre-activation is real under the precondition. -/
theorem algebraic : Cert.algebraic_KernelIdeal_ReferenceIdeal := by
  intro m ρ m' ρ' hpre hagree
  refine ⟨fun c => Cert.KernelIdeal.Gen.W7 (F := Ideal) m ρ c (Proc.devRef .tc Cert.KernelIdeal.main_v56),
    Cert.KernelIdeal.KV.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  show _ = Cert.KernelIdeal.Gen.W7 (F := Ideal) m ρ c (Proc.devRef .tc Cert.KernelIdeal.main_v56)
  obtain ⟨a0, a1, a2, a3, a4, a5⟩ := hagree c
  obtain ⟨r0, r2, r3⟩ := Cert.Bridge.inputs_real _ _ _ _ _ _ (hpre c)
  rw [Cert.ReferenceIdeal.ReadP.val_main_v72_eq, Cert.Bridge.ref_value, Cert.Bridge.ref_hpre, a0, a1, a2, a3, a4, a5,
    Cert.KernelIdeal.KV.kernel_out,
    var_agree _ (Cert.Bridge.relu_graph_real _ _ _ _ r0 r2 r3)]

end Cert.Proof

/-- Everything the certificate claims. -/
theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
